-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S64x3 : Shape := ⟨2, ![64, 3]⟩
abbrev S64 : Shape := ⟨1, ![64]⟩
abbrev S2x64 : Shape := ⟨2, ![2, 64]⟩
abbrev S2 : Shape := ⟨1, ![2]⟩
abbrev S64x64 : Shape := ⟨2, ![64, 64]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x64 .f32) (main_arg13 : FVec F S64 .f32) (main_arg14 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_v63 main_v67

def fn_part2 {F : FTy → Type} [FloatOps F] (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S2 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x3 .f32) (main_arg1 : IVec S2x1600000 32) (main_arg2 : FVec F S64x3 .f32) (main_arg3 : FVec F S64 .f32) (main_arg4 : FVec F S2x64 .f32) (main_arg5 : FVec F S2 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S64x3 .f32 := Host.absf main_arg2
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64 .f32 := Host.absf main_arg4
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x3 : Shape := ⟨2, ![100000, 3]⟩
abbrev S2x1600000 : Shape := ⟨2, ![2, 1600000]⟩
abbrev S64x3 : Shape := ⟨2, ![64, 3]⟩
abbrev S64 : Shape := ⟨1, ![64]⟩
abbrev S2x64 : Shape := ⟨2, ![2, 64]⟩
abbrev S2 : Shape := ⟨1, ![2]⟩
abbrev S64x64 : Shape := ⟨2, ![64, 64]⟩
abbrev S1x1600000 : Shape := ⟨2, ![1, 1600000]⟩
abbrev S1600000 : Shape := ⟨1, ![1600000]⟩
abbrev S3x64 : Shape := ⟨2, ![3, 64]⟩
abbrev S1x64 : Shape := ⟨2, ![1, 64]⟩
abbrev S100000x64 : Shape := ⟨2, ![100000, 64]⟩
abbrev S5000x3 : Shape := ⟨2, ![5000, 3]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S64x2 : Shape := ⟨2, ![64, 2]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 76
  | .vmem => 39
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S64x3, .f32⟩
  | .hbm, ⟨3, _⟩ => ⟨S64, .f32⟩
  | .hbm, ⟨4, _⟩ => ⟨S2x64, .f32⟩
  | .hbm, ⟨5, _⟩ => ⟨S2, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S3x64, .f32⟩
  | .hbm, ⟨20, _⟩ => ⟨S1x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S64x64, .f32⟩
  | .hbm, ⟨36, _⟩ => ⟨S64x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S64x64, .f32⟩
  | .hbm, ⟨53, _⟩ => ⟨S64x64, .f32⟩
  | .hbm, ⟨54, _⟩ => ⟨S1x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S64x64, .f32⟩
  | .hbm, ⟨70, _⟩ => ⟨S64x64, .f32⟩
  | .hbm, ⟨71, _⟩ => ⟨S1x64, .f32⟩
  | .hbm, ⟨72, _⟩ => ⟨S100000x64, .f32⟩
  | .hbm, ⟨73, _⟩ => ⟨S64x2, .f32⟩
  | .hbm, ⟨74, _⟩ => ⟨S1x2, .f32⟩
  | .hbm, ⟨75, _⟩ => ⟨S100000x2, .f32⟩
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x2, .f32⟩
  | .local _ .vmem, ⟨36, _⟩ => ⟨S1x2, .f32⟩
  | .local _ .vmem, ⟨37, _⟩ => ⟨S5000x2, .f32⟩
  | .local _ .vmem, ⟨38, _⟩ => ⟨S5000x2, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x3_S3x64_1_0 : S64x3.Transposes [1, 0] S3x64
  shapeCasts_S64_S1x64 : S64.ShapeCasts S1x64
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S2x64_S64x2_1_0 : S2x64.Transposes [1, 0] S64x2
  shapeCasts_S2_S1x2 : S2.ShapeCasts S1x2
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x3_S3x64_S5000x64_1_0_0_1_n_n_wf : DotDims.WF S5000x3 S3x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S100000x2.size a
  hwx4_3 : ∀ i : grid4.Coords, EltTy.bits .f32 = 32 ∨ (Rect.block (s := S100000x2) S5000x2.size (cc4_transform_3 i) (hinb4_3 i)).WholeWords (EltTy.packing .f32)

variable [Facts₀]

def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v34) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v48) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S64x3 : Shape := ⟨2, ![64, 3]⟩
abbrev S64 : Shape := ⟨1, ![64]⟩
abbrev S2x64 : Shape := ⟨2, ![2, 64]⟩
abbrev S2 : Shape := ⟨1, ![2]⟩
abbrev S64x64 : Shape := ⟨2, ![64, 64]⟩
abbrev S1x1600000 : Shape := ⟨2, ![1, 1600000]⟩
abbrev S1600000 : Shape := ⟨1, ![1600000]⟩
abbrev S3x64 : Shape := ⟨2, ![3, 64]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 107
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S64x3, .f32⟩
  | .hbm, ⟨3, _⟩ => ⟨S64, .f32⟩
  | .hbm, ⟨4, _⟩ => ⟨S2x64, .f32⟩
  | .hbm, ⟨5, _⟩ => ⟨S2, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S3x64, .f32⟩
  | .hbm, ⟨20, _⟩ => ⟨S100000x64, .f32⟩
  | .hbm, ⟨21, _⟩ => ⟨S1x64, .f32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S64x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S64x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S64x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S64x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | .hbm, ⟨99, _⟩ => ⟨S64x2, .f32⟩
  | .hbm, ⟨100, _⟩ => ⟨S100000x2, .f32⟩
  | .hbm, ⟨101, _⟩ => ⟨S1x2, .f32⟩
  | .hbm, ⟨102, _⟩ => ⟨S100000x2, .f32⟩
  | .hbm, ⟨103, _⟩ => ⟨S100000x2, .f32⟩
  | .hbm, ⟨104, _⟩ => ⟨S_, .f32⟩
  | .hbm, ⟨105, _⟩ => ⟨S100000x2, .f32⟩
  | .hbm, ⟨106, _⟩ => ⟨S100000x2, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_cst : Ref sig .tc := ⟨.hbm, 24, rfl⟩
abbrev main_call0_v0 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_c_1 : Ref sig .tc := ⟨.hbm, 51, rfl⟩
abbrev main_v29 : Ref sig .tc := ⟨.hbm, 52, rfl⟩
abbrev main_v30 : Ref sig .tc := ⟨.hbm, 53, rfl⟩
abbrev main_c_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call2_cst : Ref sig .tc := ⟨.hbm, 72, rfl⟩
abbrev main_call2_v0 : Ref sig .tc := ⟨.hbm, 73, rfl⟩
abbrev main_v47 : Ref sig .tc := ⟨.hbm, 74, rfl⟩
abbrev main_c_4 : Ref sig .tc := ⟨.hbm, 75, rfl⟩
abbrev main_v48 : Ref sig .tc := ⟨.hbm, 76, rfl⟩
abbrev main_v49 : Ref sig .tc := ⟨.hbm, 77, rfl⟩
abbrev main_c_5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call3_cst : Ref sig .tc := ⟨.hbm, 96, rfl⟩
abbrev main_call3_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call4_cst : Ref sig .tc := ⟨.hbm, 104, rfl⟩
abbrev main_call4_v0 : Ref sig .tc := ⟨.hbm, 105, rfl⟩
abbrev main_v72 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x3_S3x64_1_0 : S64x3.Transposes [1, 0] S3x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x64_S64x64_1_0 : S64x64.Transposes [1, 0] S64x64
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  dot_S100000x3_S3x64_S100000x64_1_0_0_1_n_n_wf : DotDims.WF S100000x3 S3x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run with its result named.

  The program is five grid launches with stretches of host operations between them. Its frame certificate follows the
  buffer contents from boundary to boundary: `W0` is the launch memory, a host stretch takes `W(2k)` to `W(2k+1)` by
  applying its operations, and launch `k` takes `W(2k+1)` to `W(2k+2)` by replacing each of its arrays with what its
  write-backs leave there. The last thread state holds every unscoped buffer at `W10`. Here the final state is read at the
  result buffer as well as at the fifteen argument buffers: every weakly fair execution terminates without a fault, the
  result buffer holds `W10` at it, and the arguments hold what they were launched with.
-/
import proofs.«146894_j34050500722941_1_alg».proof.Proof.KernelIdealFrameP

set_option maxRecDepth 16384

noncomputable section

namespace Cert.KernelIdeal.ValueRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument buffers as launched. -/
theorem run_out : θ_run defs (onTc (τ := τ) (main (F := F))) ⟨m, fun _ => 0, ρ⟩ (fun r => ∀ c : Dev nD,
      r.2.mem ((c.tc : Thread nD τ).loc main_v51) = W10 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v51 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.ValueRun

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibDenseRelu.lean ====
/-
  Dense layers followed by a rectifier, read at coordinates over the extended reals.

  Two layers are named. `affineRelu X W b` is the matrix whose entry (a, q) is
  `max (∑ k, X (a, k) · W (k, q) + b (0, q)) 0`: a matrix product with a bias row added and the rectifier applied.
  `pairRelu A Wa Hm Wh b` has the entry `max ((∑ k, A (a, k) · Wa (k, q) + ∑ k, Hm (a, k) · Wh (k, q)) + b (0, q)) 0`:
  two products added, then the bias row, then the rectifier.

  Each layer is met in two spellings. The accumulating spelling multiplies into a zero accumulator, stretches the
  one-row bias down the rows, and takes the maximum with a splat of zero; the host spelling uses the plain product,
  stretches the one-row bias by a dimension map, and takes the maximum with a scalar zero stretched to the whole shape.
  The host spelling of the second layer adds in another order, `(A·Wa + b) + Hm·Wh`; addition on the extended reals is
  commutative and associative (the infinities included), so both orders give one number. Rows of a product depend only on
  the same rows of the left operand, which is what lets a row block of the result be computed from the row block of the
  left operand: `affineReluAt` and `pairReluAt` take the row as a coordinate so that this is visible in their statements.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«146894_j34050500722941_1_alg».proof.Proof.LibColumnBlocks
import proofs.«146894_j34050500722941_1_alg».proof.Proof.LibCastForms

noncomputable section

namespace Cert.LibDenseRelu

open Idealize.ShloMosaic Idealize.ShloMosaic.ValueIdx

/-! ## The two layers -/

section Defs
variable {N K H : ℕ}

/-- Entry (a, q) of `relu (X · W + b)`. -/
def affineReluAt (X : (⟨2, ![N, K]⟩ : Shape).Idx → EReal) (W : (⟨2, ![K, H]⟩ : Shape).Idx → EReal)
    (b : (⟨2, ![1, H]⟩ : Shape).Idx → EReal) (a : Fin N) (q : Fin H) : EReal :=
  max ((∑ k : Fin K, X (ix2 a k) * W (ix2 k q)) + b (ix2 (0 : Fin 1) q)) 0

/-- `relu (X · W + b)` as a matrix. -/
def affineRelu (X : (⟨2, ![N, K]⟩ : Shape).Idx → EReal) (W : (⟨2, ![K, H]⟩ : Shape).Idx → EReal)
    (b : (⟨2, ![1, H]⟩ : Shape).Idx → EReal) : (⟨2, ![N, H]⟩ : Shape).Idx → EReal :=
  fun j => affineReluAt X W b (j 0) (j 1)

theorem affineRelu_ix2 (X : (⟨2, ![N, K]⟩ : Shape).Idx → EReal) (W : (⟨2, ![K, H]⟩ : Shape).Idx → EReal)
    (b : (⟨2, ![1, H]⟩ : Shape).Idx → EReal) (a : Fin N) (q : Fin H) :
    affineRelu X W b (ix2 a q) = affineReluAt X W b a q := rfl

/-- Entry (a, q) of `relu ((A · Wa + Hm · Wh) + b)`. -/
def pairReluAt (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) (a : Fin N) (q : Fin H) : EReal :=
  max (((∑ k : Fin K, A (ix2 a k) * Wa (ix2 k q)) + (∑ k : Fin K, Hm (ix2 a k) * Wh (ix2 k q))) + b (ix2 (0 : Fin 1) q)) 0

/-- `relu ((A · Wa + Hm · Wh) + b)` as a matrix. -/
def pairRelu (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) : (⟨2, ![N, H]⟩ : Shape).Idx → EReal :=
  fun j => pairReluAt A Wa Hm Wh b (j 0) (j 1)

theorem pairRelu_ix2 (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) (a : Fin N) (q : Fin H) :
    pairRelu A Wa Hm Wh b (ix2 a q) = pairReluAt A Wa Hm Wh b a q := rfl

/-- An entry of `affineRelu` depends on one row of the left operand: two left operands that agree on a row give
    the same entry there. -/
theorem affineReluAt_congr_row {N' : ℕ} (X : (⟨2, ![N, K]⟩ : Shape).Idx → EReal) (X' : (⟨2, ![N', K]⟩ : Shape).Idx → EReal)
    (W : (⟨2, ![K, H]⟩ : Shape).Idx → EReal) (b : (⟨2, ![1, H]⟩ : Shape).Idx → EReal) (a : Fin N) (a' : Fin N') (q q' : Fin H)
    (hX : ∀ k : Fin K, X (ix2 a k) = X' (ix2 a' k)) (hq : q.val = q'.val) :
    affineReluAt X W b a q = affineReluAt X' W b a' q' := by
  obtain rfl : q = q' := Fin.ext hq
  unfold affineReluAt
  simp only [hX]

/-- An entry of `pairRelu` depends on one row of each left operand. -/
theorem pairReluAt_congr_row {N' : ℕ} (A : (⟨2, ![N, K]⟩ : Shape).Idx → EReal) (A' : (⟨2, ![N', K]⟩ : Shape).Idx → EReal)
    (Wa : (⟨2, ![K, H]⟩ : Shape).Idx → EReal) (Hm : (⟨2, ![N, K]⟩ : Shape).Idx → EReal) (Hm' : (⟨2, ![N', K]⟩ : Shape).Idx → EReal)
    (Wh : (⟨2, ![K, H]⟩ : Shape).Idx → EReal) (b : (⟨2, ![1, H]⟩ : Shape).Idx → EReal) (a : Fin N) (a' : Fin N') (q q' : Fin H)
    (hA : ∀ k : Fin K, A (ix2 a k) = A' (ix2 a' k)) (hH : ∀ k : Fin K, Hm (ix2 a k) = Hm' (ix2 a' k)) (hq : q.val = q'.val) :
    pairReluAt A Wa Hm Wh b a q = pairReluAt A' Wa Hm' Wh b a' q' := by
  obtain rfl : q = q' := Fin.ext hq
  unfold pairReluAt
  simp only [hA, hH]

end Defs

/-! ## The accumulating spelling: a product into a zero accumulator, the bias row stretched, a splat of zero -/

section Tile
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- One product, the bias row, the rectifier. -/
theorem tile_affineRelu (prec : Option ContractPrecision) (x : FVec Ideal ⟨2, ![A, K]⟩ φ₁) (w : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    maximumf (addf (matmul d prec x w (constant ⟨2, ![A, B]⟩ .f32 0x00000000#32)) (broadcastTo ⟨2, ![A, B]⟩ b hb))
        (broadcast ⟨2, ![A, B]⟩ (Scalar.ofBits .f32 0x00000000#32)) (ix2 p q)
      = affineReluAt x w b p q := by
  rw [maximumf_apply, addf_apply, LibColumnBlocks.matmul_zero_apply d hr hs hlc hrc hl0 hr1 x w p q prec,
    broadcastTo_1b_ab_apply b hb p q, broadcast_apply]
  show max _ (Ideal.ofBits .f32 0x00000000#32) = _
  rw [Ideal.ofBits_zero_f32]
  rfl

include hr hs hlc hrc hl0 hr1 in
/-- Two products added, then the bias row, then the rectifier. -/
theorem tile_pairRelu (prec : Option ContractPrecision) (xa : FVec Ideal ⟨2, ![A, K]⟩ φ₁) (wa : FVec Ideal ⟨2, ![K, B]⟩ φ₂)
    (xh : FVec Ideal ⟨2, ![A, K]⟩ φ₁) (wh : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    maximumf (addf (addf (matmul d prec xa wa (constant ⟨2, ![A, B]⟩ .f32 0x00000000#32))
          (matmul d prec xh wh (constant ⟨2, ![A, B]⟩ .f32 0x00000000#32))) (broadcastTo ⟨2, ![A, B]⟩ b hb))
        (broadcast ⟨2, ![A, B]⟩ (Scalar.ofBits .f32 0x00000000#32)) (ix2 p q)
      = pairReluAt xa wa xh wh b p q := by
  rw [maximumf_apply, addf_apply, addf_apply, LibColumnBlocks.matmul_zero_apply d hr hs hlc hrc hl0 hr1 xa wa p q prec,
    LibColumnBlocks.matmul_zero_apply d hr hs hlc hrc hl0 hr1 xh wh p q prec, broadcastTo_1b_ab_apply b hb p q, broadcast_apply]
  show max _ (Ideal.ofBits .f32 0x00000000#32) = _
  rw [Ideal.ofBits_zero_f32]
  rfl

end Tile

/-! ## The host spelling: the plain product, the bias row stretched by a dimension map, a scalar zero stretched -/

section Host
variable {A K B : ℕ}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The host's `relu (X · W + b)`, as a whole matrix. -/
theorem host_affineRelu (prec : Option ContractPrecision) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (hz : (⟨0, ![]⟩ : Shape).BroadcastsInDim ⟨2, ![A, B]⟩ ![]) :
    maximumf (addf (Host.dotGeneral d prec x w) (broadcastInDim ⟨2, ![A, B]⟩ (![0, 1] : Fin 2 → Fin 2) hb b))
        (broadcastInDim ⟨2, ![A, B]⟩ ![] hz (constant (F := Ideal) ⟨0, ![]⟩ .f32 0x00000000#32))
      = affineRelu x w b := by
  funext j
  obtain ⟨p, q, rfl⟩ : ∃ (p : Fin A) (q : Fin B), j = ix2 p q := ⟨j 0, j 1, eq_ix2 j⟩
  rw [affineRelu_ix2, maximumf_apply, addf_apply, LibColumnBlocks.hostDot_apply d hr hs hlc hrc hl0 hr1 x w p q prec,
    LibCastForms.bcast_1b_ab_apply b hb p q, broadcastInDim_scalar_apply, constant_apply, Ideal.ofBits_zero_f32]
  rfl

include hr hs hlc hrc hl0 hr1 in
/-- The host's `relu ((A · Wa + b) + Hm · Wh)` is `pairRelu`: the three terms are added in another order. -/
theorem host_pairRelu (prec : Option ContractPrecision) (xa : FVec Ideal ⟨2, ![A, K]⟩ .f32) (wa : FVec Ideal ⟨2, ![K, B]⟩ .f32)
    (xh : FVec Ideal ⟨2, ![A, K]⟩ .f32) (wh : FVec Ideal ⟨2, ![K, B]⟩ .f32) (b : FVec Ideal ⟨2, ![1, B]⟩ .f32)
    (hb : (⟨2, ![1, B]⟩ : Shape).BroadcastsInDim ⟨2, ![A, B]⟩ (![0, 1] : Fin 2 → Fin 2))
    (hz : (⟨0, ![]⟩ : Shape).BroadcastsInDim ⟨2, ![A, B]⟩ ![]) :
    maximumf (addf (addf (Host.dotGeneral d prec xa wa) (broadcastInDim ⟨2, ![A, B]⟩ (![0, 1] : Fin 2 → Fin 2) hb b))
          (Host.dotGeneral d prec xh wh))
        (broadcastInDim ⟨2, ![A, B]⟩ ![] hz (constant (F := Ideal) ⟨0, ![]⟩ .f32 0x00000000#32))
      = pairRelu xa wa xh wh b := by
  funext j
  obtain ⟨p, q, rfl⟩ : ∃ (p : Fin A) (q : Fin B), j = ix2 p q := ⟨j 0, j 1, eq_ix2 j⟩
  rw [pairRelu_ix2, maximumf_apply, addf_apply, addf_apply, LibColumnBlocks.hostDot_apply d hr hs hlc hrc hl0 hr1 xa wa p q prec,
    LibColumnBlocks.hostDot_apply d hr hs hlc hrc hl0 hr1 xh wh p q prec,
    LibCastForms.bcast_1b_ab_apply b hb p q, broadcastInDim_scalar_apply, constant_apply, Ideal.ofBits_zero_f32]
  unfold pairReluAt
  rw [add_right_comm]

end Host

end Cert.LibDenseRelu

end
-- ==== Proof.BodyTiles.lean ====
/-
  What each of the five kernel bodies stores, at a coordinate of its output block, over the extended reals.

  A body loads whole blocks, changes float formats (the identity on extended reals), recasts shapes to themselves,
  multiplies into a zero accumulator, adds a bias row stretched down the rows and takes the maximum with zero. The first and
  the last body are `relu (x · W + b)`; the three in the middle are `relu ((agg · relW + h · rootW) + b)`.
-/
import proofs.«146894_j34050500722941_1_alg».proof.Proof.Gen.KernelIdeal.Skeleton
import proofs.«146894_j34050500722941_1_alg».proof.Proof.LibDenseRelu

noncomputable section

namespace Cert.KernelIdeal.BodyTiles

open Cert.KernelIdeal Cert.KernelIdeal.Gen Cert.LibDenseRelu
open Idealize.ShloMosaic Idealize.ShloMosaic.ValueIdx

/-- Launch 0's body: the stored value at (p, q) is `max (∑ k, x (p, k) · W (k, q) + b (0, q)) 0`. -/
theorem pay0_apply (x : Vec Ideal S5000x3 .f32) (W : Vec Ideal S3x64 .f32) (b : Vec Ideal S1x64 .f32)
    (p : Fin 5000) (q : Fin 64) :
    k0_pay1 (F := Ideal) x W b (ix2 p q) = affineReluAt x W b p q := by
  unfold k0_pay1
  refine (tile_affineRelu dot_S5000x3_S3x64_S5000x64_1_0_0_1_n_n rfl rfl rfl rfl (fun _ _ => rfl) (fun _ _ => rfl) none
    _ _ _ broadcasts_S1x64_S5000x64 p q).trans ?_
  rw [shapeCast_self W, shapeCast_self b]
  rfl

/-- Launch 1's body: with `h` the block of node features, `agg` the block of aggregated neighbour features, the two
    transposed weight matrices and the bias row, the stored value at (p, q) is
    `max ((∑ k, agg (p, k) · relW (k, q) + ∑ k, h (p, k) · rootW (k, q)) + b (0, q)) 0`. -/
theorem pay1_apply (h agg : Vec Ideal S5000x64 .f32) (relW rootW : Vec Ideal S64x64 .f32) (b : Vec Ideal S1x64 .f32)
    (p : Fin 5000) (q : Fin 64) :
    k1_pay1 (F := Ideal) h agg relW rootW b (ix2 p q) = pairReluAt agg relW h rootW b p q := by
  unfold k1_pay1
  refine (tile_pairRelu dot_S5000x64_S64x64_S5000x64_1_0_0_1_n_n rfl rfl rfl rfl (fun _ _ => rfl) (fun _ _ => rfl) none
    _ _ _ _ _ broadcasts_S1x64_S5000x64 p q).trans ?_
  rw [shapeCast_self agg, shapeCast_self h, shapeCast_self relW, shapeCast_self rootW, shapeCast_self b]
  rfl

/-- Launch 2's body: with `h` the block of node features, `agg` the block of aggregated neighbour features, the two
    transposed weight matrices and the bias row, the stored value at (p, q) is
    `max ((∑ k, agg (p, k) · relW (k, q) + ∑ k, h (p, k) · rootW (k, q)) + b (0, q)) 0`. -/
theorem pay2_apply (h agg : Vec Ideal S5000x64 .f32) (relW rootW : Vec Ideal S64x64 .f32) (b : Vec Ideal S1x64 .f32)
    (p : Fin 5000) (q : Fin 64) :
    k2_pay1 (F := Ideal) h agg relW rootW b (ix2 p q) = pairReluAt agg relW h rootW b p q := by
  unfold k2_pay1
  refine (tile_pairRelu dot_S5000x64_S64x64_S5000x64_1_0_0_1_n_n rfl rfl rfl rfl (fun _ _ => rfl) (fun _ _ => rfl) none
    _ _ _ _ _ broadcasts_S1x64_S5000x64 p q).trans ?_
  rw [shapeCast_self agg, shapeCast_self h, shapeCast_self relW, shapeCast_self rootW, shapeCast_self b]
  rfl

/-- Launch 3's body: with `h` the block of node features, `agg` the block of aggregated neighbour features, the two
    transposed weight matrices and the bias row, the stored value at (p, q) is
    `max ((∑ k, agg (p, k) · relW (k, q) + ∑ k, h (p, k) · rootW (k, q)) + b (0, q)) 0`. -/
theorem pay3_apply (h agg : Vec Ideal S5000x64 .f32) (relW rootW : Vec Ideal S64x64 .f32) (b : Vec Ideal S1x64 .f32)
    (p : Fin 5000) (q : Fin 64) :
    k3_pay1 (F := Ideal) h agg relW rootW b (ix2 p q) = pairReluAt agg relW h rootW b p q := by
  unfold k3_pay1
  refine (tile_pairRelu dot_S5000x64_S64x64_S5000x64_1_0_0_1_n_n rfl rfl rfl rfl (fun _ _ => rfl) (fun _ _ => rfl) none
    _ _ _ _ _ broadcasts_S1x64_S5000x64 p q).trans ?_
  rw [shapeCast_self agg, shapeCast_self h, shapeCast_self relW, shapeCast_self rootW, shapeCast_self b]
  rfl

/-- Launch 4's body: the stored value at (p, q) is `max (∑ k, h (p, k) · W (k, q) + b (0, q)) 0`. -/
theorem pay4_apply (h : Vec Ideal S5000x64 .f32) (W : Vec Ideal S64x2 .f32) (b : Vec Ideal S1x2 .f32)
    (p : Fin 5000) (q : Fin 2) :
    k4_pay1 (F := Ideal) h W b (ix2 p q) = affineReluAt h W b p q := by
  unfold k4_pay1
  refine (tile_affineRelu dot_S5000x64_S64x2_S5000x2_1_0_0_1_n_n rfl rfl rfl rfl (fun _ _ => rfl) (fun _ _ => rfl) none
    _ _ _ broadcasts_S1x2_S5000x2 p q).trans ?_
  rw [shapeCast_self h, shapeCast_self W, shapeCast_self b]
  rfl

end Cert.KernelIdeal.BodyTiles

end
-- ==== Proof.Region0.lean ====
/-
  Launch 0 (the first dense layer): the whole output array after the launch.

  The grid has 20 points. Point `t` reads rows `5000 t … 5000 t + 4999` of the node matrix, the whole transposed weight
  matrix and the whole bias row, and writes rows `5000 t … 5000 t + 4999` of the output. An entry of `relu (x · W + b)`
  depends on one row of `x` only, so the block point `t` writes is the same rows of `affineRelu` of the whole arrays; the
  twenty blocks tile the 100000 rows, so the output array ends holding `affineRelu` of the arrays the launch was entered
  with. Stated at any entry contents `V`.
-/
import proofs.«146894_j34050500722941_1_alg».proof.Proof.KernelIdealFrameP
import proofs.«146894_j34050500722941_1_alg».proof.Proof.BodyTiles

set_option maxRecDepth 16384

noncomputable section

namespace Cert.KernelIdeal.Region0

open Cert.KernelIdeal Cert.KernelIdeal.Gen Cert.KernelIdeal.GenP Cert.KernelIdeal.BodyTiles Cert.LibDenseRelu
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node matrix and the output move down one block of rows per point; the weights
    and the bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The node block at point `t` is rows `5000 t …` of the node matrix. -/
theorem rows_apply (c : Dev nD) (t : Fin cfg0.N) (p : Fin 5000) (k : Fin 3) (i : S100000x3.Idx)
    (h0 : (i 0).val = 5000 * t.val + p.val) (h1 : (i 1).val = k.val) :
    (iblk0 V c 0 t : Vec Ideal S5000x3 .f32) (ix2 p k) = (V c main_arg0 : S100000x3.Idx → EReal) i := by
  obtain ⟨e0, e1, -⟩ := idx_facts t
  unfold iblk0
  rw [View.read_apply]
  show (V c main_arg0 : S100000x3.Idx → EReal) _ = (V c main_arg0 : S100000x3.Idx → EReal) _
  refine congrArg _ (funext fun a => Fin.ext ?_)
  match a with
  | ⟨0, _⟩ => show win0_0.index t (0 : Fin 2) * 5000 + 1 * p.val = (i 0).val; rw [e0, h0]; omega
  | ⟨1, _⟩ => show win0_0.index t (1 : Fin 2) * 3 + 1 * k.val = (i 1).val; rw [e1, h1]; omega

/-- The weight block at every point is the whole weight matrix. -/
theorem weights_eq (c : Dev nD) (t : Fin cfg0.N) :
    (iblk0 V c 1 t : Vec Ideal S3x64 .f32) = (V c main_v4 : S3x64.Idx → EReal) := by
  obtain ⟨-, -, e2, e3, -⟩ := idx_facts t
  funext y
  unfold iblk0
  rw [View.read_apply]
  show (V c main_v4 : S3x64.Idx → EReal) _ = (V c main_v4 : S3x64.Idx → EReal) _
  refine congrArg _ (funext fun a => Fin.ext ?_)
  match a with
  | ⟨0, _⟩ => show win0_1.index t (0 : Fin 2) * 3 + 1 * (y 0).val = (y 0).val; rw [e2]; omega
  | ⟨1, _⟩ => show win0_1.index t (1 : Fin 2) * 64 + 1 * (y 1).val = (y 1).val; rw [e3]; omega

/-- The bias block at every point is the whole bias row. -/
theorem bias_eq (c : Dev nD) (t : Fin cfg0.N) :
    (iblk0 V c 2 t : Vec Ideal S1x64 .f32) = (V c main_v5 : S1x64.Idx → EReal) := by
  obtain ⟨-, -, -, -, e4, e5, -⟩ := idx_facts t
  funext y
  unfold iblk0
  rw [View.read_apply]
  show (V c main_v5 : S1x64.Idx → EReal) _ = (V c main_v5 : S1x64.Idx → EReal) _
  refine congrArg _ (funext fun a => Fin.ext ?_)
  match a with
  | ⟨0, _⟩ => show win0_2.index t (0 : Fin 2) * 1 + 1 * (y 0).val = (y 0).val; rw [e4]; omega
  | ⟨1, _⟩ => show win0_2.index t (1 : Fin 2) * 64 + 1 * (y 1).val = (y 1).val; rw [e5]; omega

/-- What point `t` writes back is block `t` of `affineRelu` of the arrays as the launch finds them. -/
theorem flushed_eq (c : Dev nD) (t : Fin cfg0.N) :
    (dat0 V c).flushed 3 t = ((cfg0.win 3).blk t).view.read (Elt Ideal)
      (affineRelu (V c main_arg0 : S100000x3.Idx → EReal) (V c main_v4 : S3x64.Idx → EReal) (V c main_v5 : S1x64.Idx → EReal)) := by
  show (cfg0.win 3).cut (grid0.coords t) ((dat0 V c).after 3 t) = _
  rw [after0_3]
  unfold out0_3
  rw [View.canon_unit_zero hz]
  simp only [View.ld_unit_zero (S := S5000x3) hz, View.ld_unit_zero (S := S3x64) hz, View.ld_unit_zero (S := S1x64) hz]
  obtain ⟨-, -, -, -, -, -, e6, e7⟩ := idx_facts t
  funext y
  obtain ⟨p, q, rfl⟩ : ∃ (p : Fin 5000) (q : Fin 64), y = ix2 p q := ⟨y 0, y 1, eq_ix2 y⟩
  refine (pay0_apply (iblk0 V c 0 t) (iblk0 V c 1 t) (iblk0 V c 2 t) p q).trans ?_
  rw [View.read_apply]
  have hi0 : ((((cfg0.win 3).blk t).view.emb (ix2 p q)) 0).val = 5000 * t.val + p.val := by
    show win0_3.index t (0 : Fin 2) * 5000 + 1 * p.val = _
    rw [e6]; omega
  have hi1 : q.val = ((((cfg0.win 3).blk t).view.emb (ix2 p q)) 1).val := by
    show _ = win0_3.index t (1 : Fin 2) * 64 + 1 * q.val
    rw [e7]; omega
  show affineReluAt (iblk0 V c 0 t) (iblk0 V c 1 t) (iblk0 V c 2 t) p q
    = affineReluAt (V c main_arg0 : S100000x3.Idx → EReal) (V c main_v4 : S3x64.Idx → EReal) (V c main_v5 : S1x64.Idx → EReal)
        ((((cfg0.win 3).blk t).view.emb (ix2 p q)) 0) ((((cfg0.win 3).blk t).view.emb (ix2 p q)) 1)
  rw [weights_eq V c t, bias_eq V c t]
  exact affineReluAt_congr_row _ _ _ _ p _ q _ (fun k => rows_apply V c t p k _ hi0 rfl) hi1

/-- Every row of the output is in some point's block: the point that covers row `r` is `r / 5000`. -/
theorem cover (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  have hN : cfg0.N = 20 := N_0
  have ht : (i 0).val / 5000 < cfg0.N := by rw [hN]; omega
  obtain ⟨-, -, -, -, -, -, e6, e7⟩ := idx_facts ⟨(i 0).val / 5000, ht⟩
  have e6' : win0_3.index ⟨(i 0).val / 5000, ht⟩ (0 : Fin 2) = (i 0).val / 5000 := e6
  refine ⟨⟨(i 0).val / 5000, ht⟩, flush0_3 _, ?_⟩
  show i ∈ ((View.whole main_v6).slice (win0_3.rect ⟨(i 0).val / 5000, ht⟩)).set
  rw [View.set_slice_whole, Rect.mem_set_unit]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6']; omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e7]; omega

/-- The output array after the launch is `affineRelu` of the arrays the launch was entered with. -/
theorem final (c : Dev nD) :
    (dat0 V c).arrAt 3 cfg0.N
      = affineRelu (V c main_arg0 : S100000x3.Idx → EReal) (V c main_v4 : S3x64.Idx → EReal) (V c main_v5 : S1x64.Idx → EReal) :=
  (dat0 V c).arrAt_eq_of_cover 3 _ (fun t _ => flushed_eq V c t) cover

end Cert.KernelIdeal.Region0

end
-- ==== Proof.Region1.lean ====
/-
  Launch 1 (the first message-passing layer): the whole output array after the launch.

  The grid has 20 points. Point `t` reads rows `5000 t … 5000 t + 4999` of the node features `h` and of the aggregated
  neighbour features `agg`, the two whole transposed weight matrices and the whole bias row, and writes the same rows of the
  output. An entry of `relu ((agg · relW + h · rootW) + b)` depends on one row of `agg` and the same row of `h` only, so the
  block point `t` writes is those rows of `pairRelu` of the whole arrays; the twenty blocks tile the 100000 rows, so the
  output array ends holding `pairRelu` of the arrays the launch was entered with. Stated at any entry contents `V`.
-/
import proofs.«146894_j34050500722941_1_alg».proof.Proof.KernelIdealFrameP
import proofs.«146894_j34050500722941_1_alg».proof.Proof.BodyTiles

set_option maxRecDepth 16384

noncomputable section

namespace Cert.KernelIdeal.Region1

open Cert.KernelIdeal Cert.KernelIdeal.Gen Cert.KernelIdeal.GenP Cert.KernelIdeal.BodyTiles Cert.LibDenseRelu
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two feature matrices and the output move down one block of rows per point; the
    weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of node features at point `t` is rows `5000 t …` of `h`. -/
theorem h_rows_apply (c : Dev nD) (t : Fin cfg1.N) (p : Fin 5000) (k : Fin 64) (i : S100000x64.Idx)
    (h0 : (i 0).val = 5000 * t.val + p.val) (h1 : (i 1).val = k.val) :
    (iblk1 V c 0 t : Vec Ideal S5000x64 .f32) (ix2 p k) = (V c main_v6 : S100000x64.Idx → EReal) i := by
  obtain ⟨e0, e1, -⟩ := idx_facts t
  unfold iblk1
  rw [View.read_apply]
  show (V c main_v6 : S100000x64.Idx → EReal) _ = (V c main_v6 : S100000x64.Idx → EReal) _
  refine congrArg _ (funext fun a => Fin.ext ?_)
  match a with
  | ⟨0, _⟩ => show win1_0.index t (0 : Fin 2) * 5000 + 1 * p.val = (i 0).val; rw [e0, h0]; omega
  | ⟨1, _⟩ => show win1_0.index t (1 : Fin 2) * 64 + 1 * k.val = (i 1).val; rw [e1, h1]; omega

/-- The block of aggregated features at point `t` is rows `5000 t …` of `agg`. -/
theorem agg_rows_apply (c : Dev nD) (t : Fin cfg1.N) (p : Fin 5000) (k : Fin 64) (i : S100000x64.Idx)
    (h0 : (i 0).val = 5000 * t.val + p.val) (h1 : (i 1).val = k.val) :
    (iblk1 V c 1 t : Vec Ideal S5000x64 .f32) (ix2 p k) = (V c main_v16 : S100000x64.Idx → EReal) i := by
  obtain ⟨-, -, e2, e3, -⟩ := idx_facts t
  unfold iblk1
  rw [View.read_apply]
  show (V c main_v16 : S100000x64.Idx → EReal) _ = (V c main_v16 : S100000x64.Idx → EReal) _
  refine congrArg _ (funext fun a => Fin.ext ?_)
  match a with
  | ⟨0, _⟩ => show win1_1.index t (0 : Fin 2) * 5000 + 1 * p.val = (i 0).val; rw [e2, h0]; omega
  | ⟨1, _⟩ => show win1_1.index t (1 : Fin 2) * 64 + 1 * k.val = (i 1).val; rw [e3, h1]; omega

/-- The first weight block at every point is the whole matrix. -/
theorem relw_eq (c : Dev nD) (t : Fin cfg1.N) :
    (iblk1 V c 2 t : Vec Ideal S64x64 .f32) = (V c main_v17 : S64x64.Idx → EReal) := by
  obtain ⟨-, -, -, -, e4, e5, -⟩ := idx_facts t
  funext y
  unfold iblk1
  rw [View.read_apply]
  show (V c main_v17 : S64x64.Idx → EReal) _ = (V c main_v17 : S64x64.Idx → EReal) _
  refine congrArg _ (funext fun a => Fin.ext ?_)
  match a with
  | ⟨0, _⟩ => show win1_2.index t (0 : Fin 2) * 64 + 1 * (y 0).val = (y 0).val; rw [e4]; omega
  | ⟨1, _⟩ => show win1_2.index t (1 : Fin 2) * 64 + 1 * (y 1).val = (y 1).val; rw [e5]; omega

/-- The bias block at every point is the whole bias row. -/
theorem bias_eq (c : Dev nD) (t : Fin cfg1.N) :
    (iblk1 V c 3 t : Vec Ideal S1x64 .f32) = (V c main_v19 : S1x64.Idx → EReal) := by
  obtain ⟨-, -, -, -, -, -, e6, e7, -⟩ := idx_facts t
  funext y
  unfold iblk1
  rw [View.read_apply]
  show (V c main_v19 : S1x64.Idx → EReal) _ = (V c main_v19 : S1x64.Idx → EReal) _
  refine congrArg _ (funext fun a => Fin.ext ?_)
  match a with
  | ⟨0, _⟩ => show win1_3.index t (0 : Fin 2) * 1 + 1 * (y 0).val = (y 0).val; rw [e6]; omega
  | ⟨1, _⟩ => show win1_3.index t (1 : Fin 2) * 64 + 1 * (y 1).val = (y 1).val; rw [e7]; omega

/-- The second weight block at every point is the whole matrix. -/
theorem rootw_eq (c : Dev nD) (t : Fin cfg1.N) :
    (iblk1 V c 4 t : Vec Ideal S64x64 .f32) = (V c main_v18 : S64x64.Idx → EReal) := by
  obtain ⟨-, -, -, -, -, -, -, -, e8, e9, -⟩ := idx_facts t
  funext y
  unfold iblk1
  rw [View.read_apply]
  show (V c main_v18 : S64x64.Idx → EReal) _ = (V c main_v18 : S64x64.Idx → EReal) _
  refine congrArg _ (funext fun a => Fin.ext ?_)
  match a with
  | ⟨0, _⟩ => show win1_4.index t (0 : Fin 2) * 64 + 1 * (y 0).val = (y 0).val; rw [e8]; omega
  | ⟨1, _⟩ => show win1_4.index t (1 : Fin 2) * 64 + 1 * (y 1).val = (y 1).val; rw [e9]; omega

/-- What point `t` writes back is block `t` of `pairRelu` of the arrays as the launch finds them. -/
theorem flushed_eq (c : Dev nD) (t : Fin cfg1.N) :
    (dat1 V c).flushed 5 t = ((cfg1.win 5).blk t).view.read (Elt Ideal)
      (pairRelu (V c main_v16 : S100000x64.Idx → EReal) (V c main_v17 : S64x64.Idx → EReal) (V c main_v6 : S100000x64.Idx → EReal) (V c main_v18 : S64x64.Idx → EReal) (V c main_v19 : S1x64.Idx → EReal)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨-, -, -, -, -, -, -, -, -, -, e10, e11⟩ := idx_facts t
  funext y
  obtain ⟨p, q, rfl⟩ : ∃ (p : Fin 5000) (q : Fin 64), y = ix2 p q := ⟨y 0, y 1, eq_ix2 y⟩
  refine (pay1_apply (iblk1 V c 0 t) (iblk1 V c 1 t) (iblk1 V c 2 t) (iblk1 V c 4 t) (iblk1 V c 3 t) p q).trans ?_
  rw [View.read_apply]
  have hi0 : ((((cfg1.win 5).blk t).view.emb (ix2 p q)) 0).val = 5000 * t.val + p.val := by
    show win1_5.index t (0 : Fin 2) * 5000 + 1 * p.val = _
    rw [e10]; omega
  have hi1 : q.val = ((((cfg1.win 5).blk t).view.emb (ix2 p q)) 1).val := by
    show _ = win1_5.index t (1 : Fin 2) * 64 + 1 * q.val
    rw [e11]; omega
  show pairReluAt (iblk1 V c 1 t) (iblk1 V c 2 t) (iblk1 V c 0 t) (iblk1 V c 4 t) (iblk1 V c 3 t) p q
    = pairReluAt (V c main_v16 : S100000x64.Idx → EReal) (V c main_v17 : S64x64.Idx → EReal) (V c main_v6 : S100000x64.Idx → EReal) (V c main_v18 : S64x64.Idx → EReal) (V c main_v19 : S1x64.Idx → EReal)
        ((((cfg1.win 5).blk t).view.emb (ix2 p q)) 0) ((((cfg1.win 5).blk t).view.emb (ix2 p q)) 1)
  rw [relw_eq V c t, bias_eq V c t, rootw_eq V c t]
  exact pairReluAt_congr_row _ _ _ _ _ _ _ p _ q _ (fun k => agg_rows_apply V c t p k _ hi0 rfl)
    (fun k => h_rows_apply V c t p k _ hi0 rfl) hi1

/-- Every row of the output is in some point's block: the point that covers row `r` is `r / 5000`. -/
theorem cover (i : S100000x64.Idx) : ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 20 := N_1
  have ht : (i 0).val / 5000 < cfg1.N := by rw [hN]; omega
  obtain ⟨-, -, -, -, -, -, -, -, -, -, e10, e11⟩ := idx_facts ⟨(i 0).val / 5000, ht⟩
  have e10' : win1_5.index ⟨(i 0).val / 5000, ht⟩ (0 : Fin 2) = (i 0).val / 5000 := e10
  refine ⟨⟨(i 0).val / 5000, ht⟩, flush1_5 _, ?_⟩
  show i ∈ ((View.whole main_v20).slice (win1_5.rect ⟨(i 0).val / 5000, ht⟩)).set
  rw [View.set_slice_whole, Rect.mem_set_unit]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e10']; omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e11]; omega

/-- The output array after the launch is `pairRelu` of the arrays the launch was entered with. -/
theorem final (c : Dev nD) :
    (dat1 V c).arrAt 5 cfg1.N
      = pairRelu (V c main_v16 : S100000x64.Idx → EReal) (V c main_v17 : S64x64.Idx → EReal) (V c main_v6 : S100000x64.Idx → EReal) (V c main_v18 : S64x64.Idx → EReal) (V c main_v19 : S1x64.Idx → EReal) :=
  (dat1 V c).arrAt_eq_of_cover 5 _ (fun t _ => flushed_eq V c t) cover

end Cert.KernelIdeal.Region1

end
-- ==== Proof.Region2.lean ====
/-
  Launch 2 (the second message-passing layer): the whole output array after the launch.

  The grid has 20 points. Point `t` reads rows `5000 t … 5000 t + 4999` of the node features `h` and of the aggregated
  neighbour features `agg`, the two whole transposed weight matrices and the whole bias row, and writes the same rows of the
  output. An entry of `relu ((agg · relW + h · rootW) + b)` depends on one row of `agg` and the same row of `h` only, so the
  block point `t` writes is those rows of `pairRelu` of the whole arrays; the twenty blocks tile the 100000 rows, so the
  output array ends holding `pairRelu` of the arrays the launch was entered with. Stated at any entry contents `V`.
-/
import proofs.«146894_j34050500722941_1_alg».proof.Proof.KernelIdealFrameP
import proofs.«146894_j34050500722941_1_alg».proof.Proof.BodyTiles

set_option maxRecDepth 16384

noncomputable section

namespace Cert.KernelIdeal.Region2

open Cert.KernelIdeal Cert.KernelIdeal.Gen Cert.KernelIdeal.GenP Cert.KernelIdeal.BodyTiles Cert.LibDenseRelu
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two feature matrices and the output move down one block of rows per point; the
    weights and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of node features at point `t` is rows `5000 t …` of `h`. -/
theorem h_rows_apply (c : Dev nD) (t : Fin cfg2.N) (p : Fin 5000) (k : Fin 64) (i : S100000x64.Idx)
    (h0 : (i 0).val = 5000 * t.val + p.val) (h1 : (i 1).val = k.val) :
    (iblk2 V c 0 t : Vec Ideal S5000x64 .f32) (ix2 p k) = (V c main_v20 : S100000x64.Idx → EReal) i := by
  obtain ⟨e0, e1, -⟩ := idx_facts t
  unfold iblk2
  rw [View.read_apply]
  show (V c main_v20 : S100000x64.Idx → EReal) _ = (V c main_v20 : S100000x64.Idx → EReal) _
  refine congrArg _ (funext fun a => Fin.ext ?_)
  match a with
  | ⟨0, _⟩ => show win2_0.index t (0 : Fin 2) * 5000 + 1 * p.val = (i 0).val; rw [e0, h0]; omega
  | ⟨1, _⟩ => show win2_0.index t (1 : Fin 2) * 64 + 1 * k.val = (i 1).val; rw [e1, h1]; omega

/-- The block of aggregated features at point `t` is rows `5000 t …` of `agg`. -/
theorem agg_rows_apply (c : Dev nD) (t : Fin cfg2.N) (p : Fin 5000) (k : Fin 64) (i : S100000x64.Idx)
    (h0 : (i 0).val = 5000 * t.val + p.val) (h1 : (i 1).val = k.val) :
    (iblk2 V c 1 t : Vec Ideal S5000x64 .f32) (ix2 p k) = (V c main_v30 : S100000x64.Idx → EReal) i := by
  obtain ⟨-, -, e2, e3, -⟩ := idx_facts t
  unfold iblk2
  rw [View.read_apply]
  show (V c main_v30 : S100000x64.Idx → EReal) _ = (V c main_v30 : S100000x64.Idx → EReal) _
  refine congrArg _ (funext fun a => Fin.ext ?_)
  match a with
  | ⟨0, _⟩ => show win2_1.index t (0 : Fin 2) * 5000 + 1 * p.val = (i 0).val; rw [e2, h0]; omega
  | ⟨1, _⟩ => show win2_1.index t (1 : Fin 2) * 64 + 1 * k.val = (i 1).val; rw [e3, h1]; omega

/-- The first weight block at every point is the whole matrix. -/
theorem relw_eq (c : Dev nD) (t : Fin cfg2.N) :
    (iblk2 V c 2 t : Vec Ideal S64x64 .f32) = (V c main_v31 : S64x64.Idx → EReal) := by
  obtain ⟨-, -, -, -, e4, e5, -⟩ := idx_facts t
  funext y
  unfold iblk2
  rw [View.read_apply]
  show (V c main_v31 : S64x64.Idx → EReal) _ = (V c main_v31 : S64x64.Idx → EReal) _
  refine congrArg _ (funext fun a => Fin.ext ?_)
  match a with
  | ⟨0, _⟩ => show win2_2.index t (0 : Fin 2) * 64 + 1 * (y 0).val = (y 0).val; rw [e4]; omega
  | ⟨1, _⟩ => show win2_2.index t (1 : Fin 2) * 64 + 1 * (y 1).val = (y 1).val; rw [e5]; omega

/-- The bias block at every point is the whole bias row. -/
theorem bias_eq (c : Dev nD) (t : Fin cfg2.N) :
    (iblk2 V c 3 t : Vec Ideal S1x64 .f32) = (V c main_v33 : S1x64.Idx → EReal) := by
  obtain ⟨-, -, -, -, -, -, e6, e7, -⟩ := idx_facts t
  funext y
  unfold iblk2
  rw [View.read_apply]
  show (V c main_v33 : S1x64.Idx → EReal) _ = (V c main_v33 : S1x64.Idx → EReal) _
  refine congrArg _ (funext fun a => Fin.ext ?_)
  match a with
  | ⟨0, _⟩ => show win2_3.index t (0 : Fin 2) * 1 + 1 * (y 0).val = (y 0).val; rw [e6]; omega
  | ⟨1, _⟩ => show win2_3.index t (1 : Fin 2) * 64 + 1 * (y 1).val = (y 1).val; rw [e7]; omega

/-- The second weight block at every point is the whole matrix. -/
theorem rootw_eq (c : Dev nD) (t : Fin cfg2.N) :
    (iblk2 V c 4 t : Vec Ideal S64x64 .f32) = (V c main_v32 : S64x64.Idx → EReal) := by
  obtain ⟨-, -, -, -, -, -, -, -, e8, e9, -⟩ := idx_facts t
  funext y
  unfold iblk2
  rw [View.read_apply]
  show (V c main_v32 : S64x64.Idx → EReal) _ = (V c main_v32 : S64x64.Idx → EReal) _
  refine congrArg _ (funext fun a => Fin.ext ?_)
  match a with
  | ⟨0, _⟩ => show win2_4.index t (0 : Fin 2) * 64 + 1 * (y 0).val = (y 0).val; rw [e8]; omega
  | ⟨1, _⟩ => show win2_4.index t (1 : Fin 2) * 64 + 1 * (y 1).val = (y 1).val; rw [e9]; omega

/-- What point `t` writes back is block `t` of `pairRelu` of the arrays as the launch finds them. -/
theorem flushed_eq (c : Dev nD) (t : Fin cfg2.N) :
    (dat2 V c).flushed 5 t = ((cfg2.win 5).blk t).view.read (Elt Ideal)
      (pairRelu (V c main_v30 : S100000x64.Idx → EReal) (V c main_v31 : S64x64.Idx → EReal) (V c main_v20 : S100000x64.Idx → EReal) (V c main_v32 : S64x64.Idx → EReal) (V c main_v33 : S1x64.Idx → EReal)) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  obtain ⟨-, -, -, -, -, -, -, -, -, -, e10, e11⟩ := idx_facts t
  funext y
  obtain ⟨p, q, rfl⟩ : ∃ (p : Fin 5000) (q : Fin 64), y = ix2 p q := ⟨y 0, y 1, eq_ix2 y⟩
  refine (pay2_apply (iblk2 V c 0 t) (iblk2 V c 1 t) (iblk2 V c 2 t) (iblk2 V c 4 t) (iblk2 V c 3 t) p q).trans ?_
  rw [View.read_apply]
  have hi0 : ((((cfg2.win 5).blk t).view.emb (ix2 p q)) 0).val = 5000 * t.val + p.val := by
    show win2_5.index t (0 : Fin 2) * 5000 + 1 * p.val = _
    rw [e10]; omega
  have hi1 : q.val = ((((cfg2.win 5).blk t).view.emb (ix2 p q)) 1).val := by
    show _ = win2_5.index t (1 : Fin 2) * 64 + 1 * q.val
    rw [e11]; omega
  show pairReluAt (iblk2 V c 1 t) (iblk2 V c 2 t) (iblk2 V c 0 t) (iblk2 V c 4 t) (iblk2 V c 3 t) p q
    = pairReluAt (V c main_v30 : S100000x64.Idx → EReal) (V c main_v31 : S64x64.Idx → EReal) (V c main_v20 : S100000x64.Idx → EReal) (V c main_v32 : S64x64.Idx → EReal) (V c main_v33 : S1x64.Idx → EReal)
        ((((cfg2.win 5).blk t).view.emb (ix2 p q)) 0) ((((cfg2.win 5).blk t).view.emb (ix2 p q)) 1)
  rw [relw_eq V c t, bias_eq V c t, rootw_eq V c t]
  exact pairReluAt_congr_row _ _ _ _ _ _ _ p _ q _ (fun k => agg_rows_apply V c t p k _ hi0 rfl)
    (fun k => h_rows_apply V c t p k _ hi0 rfl) hi1

/-- Every row of the output is in some point's block: the point that covers row `r` is `r / 5000`. -/
theorem cover (i : S100000x64.Idx) : ∃ t : Fin cfg2.N, (cfg2.win 5).flush t = true ∧ i ∈ ((cfg2.win 5).blk t).view.set := by
  have h0 : (i 0).val < 100000 := (i 0).isLt
  have h1 : (i 1).val < 64 := (i 1).isLt
  have hN : cfg2.N = 20 := N_2
  have ht : (i 0).val / 5000 < cfg2.N := by rw [hN]; omega
  obtain ⟨-, -, -, -, -, -, -, -, -, -, e10, e11⟩ := idx_facts ⟨(i 0).val / 5000, ht⟩
  have e10' : win2_5.index ⟨(i 0).val / 5000, ht⟩ (0 : Fin 2) = (i 0).val / 5000 := e10
  refine ⟨⟨(i 0).val / 5000, ht⟩, flush2_5 _, ?_⟩
  show i ∈ ((View.whole main_v34).slice (win2_5.rect ⟨(i 0).val / 5000, ht⟩)).set
  rw [View.set_slice_whole, Rect.mem_set_unit]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e10']; omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [e11]; omega

/-- The output array after the launch is `pairRelu` of the arrays the launch was entered with. -/
theorem final (c : Dev nD) :
    (dat2 V c).arrAt 5 cfg2.N
      = pairRelu (V c main_v30 : S100000x64.Idx → EReal) (V c main_v31 : S64x64.Idx → EReal) (V c main_v20 : S100000x64.Idx → EReal) (V c main_v32 : S64x64.Idx → EReal) (V c main_v33 : S1x64.Idx → EReal) :=
  (dat2 V c).arrAt_eq_of_cover 5 _ (fun t _ => flushed_eq V c t) cover

end Cert.KernelIdeal.Region2

end
-- ==== Proof.Region3.lean ====
/-
  Launch 3 (the third message-passing layer): the whole output array after the launch.

  The grid has 20 points. Point `t` reads rows `5000 t … 5000 t + 4999` of the node features `h` and of the aggregated
  neighbour features `agg`, the two whole transposed weight matrices and the whole bias row, and writes the same rows of the
  output. An entry of `relu ((agg · relW + h · rootW) + b)` depends on one row of `agg` and the same row of `h` only, so the
  block point `t` writes is those rows of `pairRelu` of the whole arrays; the twenty blocks tile the 100000 rows, so the
  output array ends holding `pairRelu` of the arrays the launch was entered with. Stated at any entry contents `V`.
-/
import proofs.«146894_j34050500722941_1_alg».proof.Proof.KernelIdealFrameP
import proofs.«146894_j34050500722941_1_alg».proof.Proof.BodyTiles

set_option maxRecDepth 16384

noncomputable section

namespace Cert.KernelIdeal.Region3

open Cert.KernelIdeal Cert.KernelIdeal.Gen Cert.KernelIdeal.GenP Cert.KernelIdeal.BodyTiles Cert.LibDenseRelu
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two feature matrices and the output move down one block of rows per point; the
    weights and the bias stay at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The block of node features at point `t` is rows `5000 t …` of `h`. -/
theorem h_rows_apply (c : Dev nD) (t : Fin cfg3.N) (p : Fin 5000) (k : Fin 64) (i : S100000x64.Idx)
    (h0 : (i 0).val = 5000 * t.val + p.val) (h1 : (i 1).val = k.val) :
    (iblk3 V c 0 t : Vec Ideal S5000x64 .f32) (ix2 p k) = (V c main_v34 : S100000x64.Idx → EReal) i := by
  obtain ⟨e0, e1, -⟩ := idx_facts t
  unfold iblk3
  rw [View.read_apply]
  show (V c main_v34 : S100000x64.Idx → EReal) _ = (V c main_v34 : S100000x64.Idx → EReal) _
  refine congrArg _ (funext fun a => Fin.ext ?_)
  match a with
  | ⟨0, _⟩ => show win3_0.index t (0 : Fin 2) * 5000 + 1 * p.val = (i 0).val; rw [e0, h0]; omega
  | ⟨1, _⟩ => show win3_0.index t (1 : Fin 2) * 64 + 1 * k.val = (i 1).val; rw [e1, h1]; omega

/-- The block of aggregated features at point `t` is rows `5000 t …` of `agg`. -/
theorem agg_rows_apply (c : Dev nD) (t : Fin cfg3.N) (p : Fin 5000) (k : Fin 64) (i : S100000x64.Idx)
    (h0 : (i 0).val = 5000 * t.val + p.val) (h1 : (i 1).val = k.val) :
    (iblk3 V c 1 t : Vec Ideal S5000x64 .f32) (ix2 p k) = (V c main_v44 : S100000x64.Idx → EReal) i := by
  obtain ⟨-, -, e2, e3, -⟩ := idx_facts t
  unfold iblk3
  rw [View.read_apply]
  show (V c main_v44 : S100000x64.Idx → EReal) _ = (V c main_v44 : S100000x64.Idx → EReal) _
  refine congrArg _ (funext fun a => Fin.ext ?_)
  match a with
  | ⟨0, _⟩ => show win3_1.index t (0 : Fin 2) * 5000 + 1 * p.val = (i 0).val; rw [e2, h0]; omega
  | ⟨1, _⟩ => show win3_1.index t (1 : Fin 2) * 64 + 1 * k.val = (i 1).val; rw [e3, h1]; omega

/-- The first weight block at every point is the whole matrix. -/
theorem relw_eq (c : Dev nD) (t : Fin cfg3.N) :
    (iblk3 V c 2 t : Vec Ideal S64x64 .f32) = (V c main_v45 : S64x64.Idx → EReal) := by
  obtain ⟨-, -, -, -, e4, e5, -⟩ := idx_facts t
  funext y
  unfold iblk3
  rw [View.read_apply]
  show (V c main_v45 : S64x64.Idx → EReal) _ = (V c main_v45 : S64x64.Idx → EReal) _
  refine congrArg _ (funext fun a => Fin.ext ?_)
  match a with
  | ⟨0, _⟩ => show win3_2.index t (0 : Fin 2) * 64 + 1 * (y 0).val = (y 0).val; rw [e4]; omega
  | ⟨1, _⟩ => show win3_2.index t (1 : Fin 2) * 64 + 1 * (y 1).val = (y 1).val; rw [e5]; omega

/-- The bias block at every point is the whole bias row. -/
theorem bias_eq (c : Dev nD) (t : Fin cfg3.N) :
    (iblk3 V c 3 t : Vec Ideal S1x64 .f32) = (V c main_v47 : S1x64.Idx → EReal) := by
  obtain ⟨-, -, -, -, -, -, e6, e7, -⟩ := idx_facts t
  funext y
  unfold iblk3
  rw [View.read_apply]
  show (V c main_v47 : S1x64.Idx → EReal) _ = (V c main_v47 : S1x64.Idx → EReal) _
  refine congrArg _ (funext fun a => Fin.ext ?_)
  match a with
  | ⟨0, _⟩ => show win3_3.index t (0 : Fin 2) * 1 + 1 * (y 0).val = (y 0).val; rw [e6]; omega
  | ⟨1, _⟩ => show win3_3.index t (1 : Fin 2) * 64 + 1 * (y 1).val = (y 1).val; rw [e7]; omega

/-- The second weight block at every point is the whole matrix. -/
theorem rootw_eq (c : Dev nD) (t : Fin cfg3.N) :
    (iblk3 V c 4 t : Vec Ideal S64x64 .f32) = (V c main_v46 : S64x64.Idx → EReal) := by
  obtain ⟨-, -, -, -, -, -, -, -, e8, e9, -⟩ := idx_facts t
  funext y
  unfold iblk3
  rw [View.read_apply]
  show (V c main_v46 : S64x64.Idx → EReal) _ = (V c main_v46 : S64x64.Idx → EReal) _
  refine congrArg _ (funext fun a => Fin.ext ?_)
  match a with
  | ⟨0, _⟩ => show win3_4.index t (0 : Fin 2) * 64 + 1 * (y 0).val = (y 0).val; rw [e8]; omega
  | ⟨1, _⟩ => show win3_4.index t (1 : Fin 2) * 64 + 1 * (y 1).val = (y 1).val; rw [e9]; omega

/-- What point `t` writes back is block `t` of `pairRelu` of the arrays as the launch finds them. -/
theorem flushed_eq (c : Dev nD) (t : Fin cfg3.N) :
    (dat3 V c).flushed 5 t = ((cfg3.win 5).blk t).view.read (Elt Ideal)
      (pairRelu (V c main_v44 : S100000x64.Idx → EReal) (V c main_v45 : S64x64.Idx → EReal) (V c main_v34 : S100000x64.Idx → EReal) (V c main_v46 : S64x64.Idx → EReal) (V c main_v47 : S1x64.Idx → EReal)) := by
  show (cfg3.win 5).cut (grid3.coords t) ((dat3 V c).after 5 t) = _
  rw [after3_5]
  unfold out3_5
  rw [View.canon_unit_zero hz]
  simp only [View.ld_unit_zero (S := S5000x64) hz, View.ld_unit_zero (S := S64x64) hz, View.ld_unit_zero (S := S1x64) hz]
  obtain ⟨-, -, -, -, -, -, -, -, -, -, e10, e11⟩ := idx_facts t
  funext y
  obtain ⟨p, q, rfl⟩ : ∃ (p : Fin 5000) (q : Fin 64), y = ix2 p q := ⟨y 0, y 1, eq_ix2 y⟩
  refine (pay3_apply (iblk3 V c 0 t) (iblk3 V c 1 t) (iblk3 V c 2 t) (iblk3 V c 4 t) (iblk3 V c 3 t) p q).trans ?_
  rw [View.read_apply]
  have hi0 : ((((cfg3.win 5).blk t).view.emb (ix2 p q)) 0).val = 5000 * t.val + p.val := by
    show win3_5.index t (0 : Fin 2) * 5000 + 1 * p.val = _
    rw [e10]; omega
  have hi1 : q.val = ((((cfg3.win 5).blk t).view.emb (ix2 p q)) 1).val := by
    show _ = win3_5.index t (1 : Fin 2) * 64 + 1 * q.val
    rw [e11]; omega
  show pairReluAt (iblk3 V c 1 t) (iblk3 V c 2 t) (iblk3 V c 0 t) (iblk3 V c 4 t) (iblk3 V c 3 t) p q
    = pairReluAt (V c main_v44 : S100000x64.Idx → EReal) (V c main_v45 : S64x64.Idx → EReal) (V c main_v34 : S100000x64.Idx → EReal) (V c main_v46 : S64x64.Idx → EReal) (V c main_v47 : S1x64.Idx → EReal)
        ((((cfg3.win 5).blk t).view.emb (ix2 p q)) 0) ((((cfg3.win 5).blk t).view.emb (ix2 p q)) 1)
  rw [relw_eq V c t, bias_eq V c t, rootw_eq V c t]
  exact pairReluAt_congr_row _ _ _ _ _ _ _ p _ q _ (fun k => agg_rows_apply V c t p k _ hi0 rfl)
    (fun k => h_rows_apply V c t p k _ hi0 rfl) hi1

/-- Every row of the output is in some point's block: the point that covers row `r` is `r / 5000`. -/
theorem cover (i : S100000x64.Idx) : ∃ t : Fin cfg3.N, (cfg3.win 5).flush t = true ∧ i ∈ ((cfg3.win 5).blk t).view.set := by
  have h0 : (i 0).val < 100000 := (i 0).isLt
  have h1 : (i 1).val < 64 := (i 1).isLt
  have hN : cfg3.N = 20 := N_3
  have ht : (i 0).val / 5000 < cfg3.N := by rw [hN]; omega
  obtain ⟨-, -, -, -, -, -, -, -, -, -, e10, e11⟩ := idx_facts ⟨(i 0).val / 5000, ht⟩
  have e10' : win3_5.index ⟨(i 0).val / 5000, ht⟩ (0 : Fin 2) = (i 0).val / 5000 := e10
  refine ⟨⟨(i 0).val / 5000, ht⟩, flush3_5 _, ?_⟩
  show i ∈ ((View.whole main_v48).slice (win3_5.rect ⟨(i 0).val / 5000, ht⟩)).set
  rw [View.set_slice_whole, Rect.mem_set_unit]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e10']; omega
  | ⟨1, _⟩ =>
    show win3_5.index ⟨(i 0).val / 5000, ht⟩ (1 : Fin 2) * 64 ≤ (i 1).val
      ∧ (i 1).val < win3_5.index ⟨(i 0).val / 5000, ht⟩ (1 : Fin 2) * 64 + 64
    rw [e11]; omega

/-- The output array after the launch is `pairRelu` of the arrays the launch was entered with. -/
theorem final (c : Dev nD) :
    (dat3 V c).arrAt 5 cfg3.N
      = pairRelu (V c main_v44 : S100000x64.Idx → EReal) (V c main_v45 : S64x64.Idx → EReal) (V c main_v34 : S100000x64.Idx → EReal) (V c main_v46 : S64x64.Idx → EReal) (V c main_v47 : S1x64.Idx → EReal) :=
  (dat3 V c).arrAt_eq_of_cover 5 _ (fun t _ => flushed_eq V c t) cover

end Cert.KernelIdeal.Region3

end
-- ==== Proof.Region4.lean ====
/-
  Launch 4 (the last dense layer): the whole output array after the launch.

  The grid has 20 points. Point `t` reads rows `5000 t … 5000 t + 4999` of the node matrix, the whole transposed weight
  matrix and the whole bias row, and writes rows `5000 t … 5000 t + 4999` of the output. An entry of `relu (x · W + b)`
  depends on one row of `x` only, so the block point `t` writes is the same rows of `affineRelu` of the whole arrays; the
  twenty blocks tile the 100000 rows, so the output array ends holding `affineRelu` of the arrays the launch was entered
  with. Stated at any entry contents `V`.
-/
import proofs.«146894_j34050500722941_1_alg».proof.Proof.KernelIdealFrameP
import proofs.«146894_j34050500722941_1_alg».proof.Proof.BodyTiles

set_option maxRecDepth 16384

noncomputable section

namespace Cert.KernelIdeal.Region4

open Cert.KernelIdeal Cert.KernelIdeal.Gen Cert.KernelIdeal.GenP Cert.KernelIdeal.BodyTiles Cert.LibDenseRelu
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node matrix and the output move down one block of rows per point; the weights
    and the bias stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The node block at point `t` is rows `5000 t …` of the node matrix. -/
theorem rows_apply (c : Dev nD) (t : Fin cfg4.N) (p : Fin 5000) (k : Fin 64) (i : S100000x64.Idx)
    (h0 : (i 0).val = 5000 * t.val + p.val) (h1 : (i 1).val = k.val) :
    (iblk4 V c 0 t : Vec Ideal S5000x64 .f32) (ix2 p k) = (V c main_v48 : S100000x64.Idx → EReal) i := by
  obtain ⟨e0, e1, -⟩ := idx_facts t
  unfold iblk4
  rw [View.read_apply]
  show (V c main_v48 : S100000x64.Idx → EReal) _ = (V c main_v48 : S100000x64.Idx → EReal) _
  refine congrArg _ (funext fun a => Fin.ext ?_)
  match a with
  | ⟨0, _⟩ => show win4_0.index t (0 : Fin 2) * 5000 + 1 * p.val = (i 0).val; rw [e0, h0]; omega
  | ⟨1, _⟩ => show win4_0.index t (1 : Fin 2) * 64 + 1 * k.val = (i 1).val; rw [e1, h1]; omega

/-- The weight block at every point is the whole weight matrix. -/
theorem weights_eq (c : Dev nD) (t : Fin cfg4.N) :
    (iblk4 V c 1 t : Vec Ideal S64x2 .f32) = (V c main_v49 : S64x2.Idx → EReal) := by
  obtain ⟨-, -, e2, e3, -⟩ := idx_facts t
  funext y
  unfold iblk4
  rw [View.read_apply]
  show (V c main_v49 : S64x2.Idx → EReal) _ = (V c main_v49 : S64x2.Idx → EReal) _
  refine congrArg _ (funext fun a => Fin.ext ?_)
  match a with
  | ⟨0, _⟩ => show win4_1.index t (0 : Fin 2) * 64 + 1 * (y 0).val = (y 0).val; rw [e2]; omega
  | ⟨1, _⟩ => show win4_1.index t (1 : Fin 2) * 2 + 1 * (y 1).val = (y 1).val; rw [e3]; omega

/-- The bias block at every point is the whole bias row. -/
theorem bias_eq (c : Dev nD) (t : Fin cfg4.N) :
    (iblk4 V c 2 t : Vec Ideal S1x2 .f32) = (V c main_v50 : S1x2.Idx → EReal) := by
  obtain ⟨-, -, -, -, e4, e5, -⟩ := idx_facts t
  funext y
  unfold iblk4
  rw [View.read_apply]
  show (V c main_v50 : S1x2.Idx → EReal) _ = (V c main_v50 : S1x2.Idx → EReal) _
  refine congrArg _ (funext fun a => Fin.ext ?_)
  match a with
  | ⟨0, _⟩ => show win4_2.index t (0 : Fin 2) * 1 + 1 * (y 0).val = (y 0).val; rw [e4]; omega
  | ⟨1, _⟩ => show win4_2.index t (1 : Fin 2) * 2 + 1 * (y 1).val = (y 1).val; rw [e5]; omega

/-- What point `t` writes back is block `t` of `affineRelu` of the arrays as the launch finds them. -/
theorem flushed_eq (c : Dev nD) (t : Fin cfg4.N) :
    (dat4 V c).flushed 3 t = ((cfg4.win 3).blk t).view.read (Elt Ideal)
      (affineRelu (V c main_v48 : S100000x64.Idx → EReal) (V c main_v49 : S64x2.Idx → EReal) (V c main_v50 : S1x2.Idx → EReal)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x2) hz, View.ld_unit_zero (S := S1x2) hz]
  obtain ⟨-, -, -, -, -, -, e6, e7⟩ := idx_facts t
  funext y
  obtain ⟨p, q, rfl⟩ : ∃ (p : Fin 5000) (q : Fin 2), y = ix2 p q := ⟨y 0, y 1, eq_ix2 y⟩
  refine (pay4_apply (iblk4 V c 0 t) (iblk4 V c 1 t) (iblk4 V c 2 t) p q).trans ?_
  rw [View.read_apply]
  have hi0 : ((((cfg4.win 3).blk t).view.emb (ix2 p q)) 0).val = 5000 * t.val + p.val := by
    show win4_3.index t (0 : Fin 2) * 5000 + 1 * p.val = _
    rw [e6]; omega
  have hi1 : q.val = ((((cfg4.win 3).blk t).view.emb (ix2 p q)) 1).val := by
    show _ = win4_3.index t (1 : Fin 2) * 2 + 1 * q.val
    rw [e7]; omega
  show affineReluAt (iblk4 V c 0 t) (iblk4 V c 1 t) (iblk4 V c 2 t) p q
    = affineReluAt (V c main_v48 : S100000x64.Idx → EReal) (V c main_v49 : S64x2.Idx → EReal) (V c main_v50 : S1x2.Idx → EReal)
        ((((cfg4.win 3).blk t).view.emb (ix2 p q)) 0) ((((cfg4.win 3).blk t).view.emb (ix2 p q)) 1)
  rw [weights_eq V c t, bias_eq V c t]
  exact affineReluAt_congr_row _ _ _ _ p _ q _ (fun k => rows_apply V c t p k _ hi0 rfl) hi1

/-- Every row of the output is in some point's block: the point that covers row `r` is `r / 5000`. -/
theorem cover (i : S100000x2.Idx) : ∃ t : Fin cfg4.N, (cfg4.win 3).flush t = true ∧ i ∈ ((cfg4.win 3).blk t).view.set := by
  have h0 : (i 0).val < 100000 := (i 0).isLt
  have h1 : (i 1).val < 2 := (i 1).isLt
  have hN : cfg4.N = 20 := N_4
  have ht : (i 0).val / 5000 < cfg4.N := by rw [hN]; omega
  obtain ⟨-, -, -, -, -, -, e6, e7⟩ := idx_facts ⟨(i 0).val / 5000, ht⟩
  have e6' : win4_3.index ⟨(i 0).val / 5000, ht⟩ (0 : Fin 2) = (i 0).val / 5000 := e6
  refine ⟨⟨(i 0).val / 5000, ht⟩, flush4_3 _, ?_⟩
  show i ∈ ((View.whole main_v51).slice (win4_3.rect ⟨(i 0).val / 5000, ht⟩)).set
  rw [View.set_slice_whole, Rect.mem_set_unit]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e6']; omega
  | ⟨1, _⟩ =>
    show win4_3.index ⟨(i 0).val / 5000, ht⟩ (1 : Fin 2) * 2 ≤ (i 1).val
      ∧ (i 1).val < win4_3.index ⟨(i 0).val / 5000, ht⟩ (1 : Fin 2) * 2 + 2
    rw [e7]; omega

/-- The output array after the launch is `affineRelu` of the arrays the launch was entered with. -/
theorem final (c : Dev nD) :
    (dat4 V c).arrAt 3 cfg4.N
      = affineRelu (V c main_v48 : S100000x64.Idx → EReal) (V c main_v49 : S64x2.Idx → EReal) (V c main_v50 : S1x2.Idx → EReal) :=
  (dat4 V c).arrAt_eq_of_cover 3 _ (fun t _ => flushed_eq V c t) cover

end Cert.KernelIdeal.Region4

end
-- ==== Proof.RefStages.lean ====
/-
  The reference's five dense stages as the two named layers.

  The reference computes `h0 = relu (x · preWᵀ + preb)`, then three times
  `h' = relu ((agg · relWᵀ + relb) + h · rootWᵀ)` with `agg` the neighbour sums of `h` (a gather of rows followed by a
  scatter-add, neither of which is opened here), then `out = relu (h3 · postWᵀ + postb)`. Each stage of the generated
  reading of the reference is stated as `affineRelu` or `pairRelu` of the stages it reads; the middle stages add their
  three terms in the order `(a + b) + c` where `pairRelu` has `(a + c) + b`, one number on the extended reals.
-/
import proofs.«146894_j34050500722941_1_alg».proof.Proof.Gen.ReferenceIdeal.Read
import proofs.«146894_j34050500722941_1_alg».proof.Proof.LibDenseRelu

noncomputable section

namespace Cert.ReferenceIdeal.Stages

open Cert.ReferenceIdeal Cert.ReferenceIdeal.Gen Cert.ReferenceIdeal.Read Cert.LibDenseRelu
open Idealize.ShloMosaic

/-- The first stage: `relu (x · preWᵀ + preb)`. -/
theorem stage0 (x0 : (⟨S100000x3, .f32⟩ : BufTy).Contents (Elt Ideal)) (x2 : (⟨S64x3, .f32⟩ : BufTy).Contents (Elt Ideal)) (x3 : (⟨S64, .f32⟩ : BufTy).Contents (Elt Ideal)) :
    val_main_v9 (F := Ideal) x0 x2 x3 = affineRelu x0 (val_main_v4 (F := Ideal) x2) (val_main_v6 (F := Ideal) x3) := by
  unfold val_main_v9 val_main_v8 val_main_v5 val_main_v7 val_main_call0_v0 val_main_call0_cst
  exact host_affineRelu dot_S100000x3_S3x64_S100000x64_1_0_0_1_n_n rfl rfl rfl rfl (fun _ _ => rfl) (fun _ _ => rfl) none
    _ _ _ bcast_S1x64_S100000x64_0_1 bcast_S_S100000x64

/-- The first message-passing layer. -/
theorem stage1 (x0 : (⟨S100000x3, .f32⟩ : BufTy).Contents (Elt Ideal)) (x1 : (⟨S2x1600000, .i32⟩ : BufTy).Contents (Elt Ideal)) (x2 : (⟨S64x3, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v28 (F := Ideal) x0 x1 x2 x3 x6 x7 x8
      = pairRelu (val_main_v19 (F := Ideal) x0 x1 x2 x3) (val_main_v20 (F := Ideal) x6)
          (val_main_v9 (F := Ideal) x0 x2 x3) (val_main_v25 (F := Ideal) x8) (val_main_v22 (F := Ideal) x7) := by
  unfold val_main_v28 val_main_v27 val_main_v24 val_main_v26 val_main_v21 val_main_v23 val_main_call1_v0 val_main_call1_cst
  exact host_pairRelu dot_S100000x64_S64x64_S100000x64_1_0_0_1_n_n rfl rfl rfl rfl (fun _ _ => rfl) (fun _ _ => rfl) none
    _ _ _ _ _ bcast_S1x64_S100000x64_0_1 bcast_S_S100000x64

/-- The second message-passing layer. -/
theorem stage2 (x0 : (⟨S100000x3, .f32⟩ : BufTy).Contents (Elt Ideal)) (x1 : (⟨S2x1600000, .i32⟩ : BufTy).Contents (Elt Ideal)) (x2 : (⟨S64x3, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) :
    val_main_v47 (F := Ideal) x0 x1 x2 x3 x6 x7 x8 x9 x10 x11
      = pairRelu (val_main_v38 (F := Ideal) x0 x1 x2 x3 x6 x7 x8) (val_main_v39 (F := Ideal) x9)
          (val_main_v28 (F := Ideal) x0 x1 x2 x3 x6 x7 x8) (val_main_v44 (F := Ideal) x11) (val_main_v41 (F := Ideal) x10) := by
  unfold val_main_v47 val_main_v46 val_main_v43 val_main_v45 val_main_v40 val_main_v42 val_main_call2_v0 val_main_call2_cst
  exact host_pairRelu dot_S100000x64_S64x64_S100000x64_1_0_0_1_n_n rfl rfl rfl rfl (fun _ _ => rfl) (fun _ _ => rfl) none
    _ _ _ _ _ bcast_S1x64_S100000x64_0_1 bcast_S_S100000x64

/-- The third message-passing layer. -/
theorem stage3 (x0 : (⟨S100000x3, .f32⟩ : BufTy).Contents (Elt Ideal)) (x1 : (⟨S2x1600000, .i32⟩ : BufTy).Contents (Elt Ideal)) (x2 : (⟨S64x3, .f32⟩ : BufTy).Contents (Elt Ideal)) (x3 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) :
    val_main_v66 (F := Ideal) x0 x1 x2 x3 x6 x7 x8 x9 x10 x11 x12 x13 x14
      = pairRelu (val_main_v57 (F := Ideal) x0 x1 x2 x3 x6 x7 x8 x9 x10 x11) (val_main_v58 (F := Ideal) x12)
          (val_main_v47 (F := Ideal) x0 x1 x2 x3 x6 x7 x8 x9 x10 x11) (val_main_v63 (F := Ideal) x14) (val_main_v60 (F := Ideal) x13) := by
  unfold val_main_v66 val_main_v65 val_main_v62 val_main_v64 val_main_v59 val_main_v61 val_main_call3_v0 val_main_call3_cst
  exact host_pairRelu dot_S100000x64_S64x64_S100000x64_1_0_0_1_n_n rfl rfl rfl rfl (fun _ _ => rfl) (fun _ _ => rfl) none
    _ _ _ _ _ bcast_S1x64_S100000x64_0_1 bcast_S_S100000x64

/-- The last stage: `relu (h3 · postWᵀ + postb)`. -/
theorem stage4 (x0 : (⟨S100000x3, .f32⟩ : BufTy).Contents (Elt Ideal)) (x1 : (⟨S2x1600000, .i32⟩ : BufTy).Contents (Elt Ideal)) (x2 : (⟨S64x3, .f32⟩ : BufTy).Contents (Elt Ideal)) (x3 : (⟨S64, .f32⟩ : BufTy).Contents (Elt Ideal)) (x4 : (⟨S2x64, .f32⟩ : BufTy).Contents (Elt Ideal)) (x5 : (⟨S2, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) :
    val_main_v72 (F := Ideal) x0 x1 x2 x3 x4 x5 x6 x7 x8 x9 x10 x11 x12 x13 x14
      = affineRelu (val_main_v66 (F := Ideal) x0 x1 x2 x3 x6 x7 x8 x9 x10 x11 x12 x13 x14) (val_main_v67 (F := Ideal) x4) (val_main_v69 (F := Ideal) x5) := by
  unfold val_main_v72 val_main_v71 val_main_v68 val_main_v70 val_main_call4_v0 val_main_call4_cst
  exact host_affineRelu dot_S100000x64_S64x2_S100000x2_1_0_0_1_n_n rfl rfl rfl rfl (fun _ _ => rfl) (fun _ _ => rfl) none
    _ _ _ bcast_S1x2_S100000x2_0_1 bcast_S_S100000x2

end Cert.ReferenceIdeal.Stages

end
-- ==== Proof.KernelValue.lean ====
/-
  The last boundary's contents at the result buffer, folded back to the arguments.

  Boundary `W(2k+1)` is what launch `k` is entered with and `W(2k+2)` what it leaves. Going forward: the first host stretch
  cuts the edge list into sources and destinations and transposes and recasts the first layer's parameters; launch 0 leaves
  `relu (x · preWᵀ + preb)`; each of the next three host stretches gathers the rows of the current features at the
  sources, adds them up at the destinations and prepares the layer's parameters, and the launch after it leaves
  `relu ((agg · relWᵀ + h · rootWᵀ) + relb)`; the last stretch prepares the output layer's parameters and launch 4 leaves
  `relu (h · postWᵀ + postb)`. At every boundary the buffer a later step reads is named by the stage of the reference's
  reading that computes the same array from the arguments: the gathers and scatter-adds are the same host operations applied
  to arrays already identified, so they are never opened, and the dense layers meet through `affineRelu` and `pairRelu`.
  A bias vector is recast as a one-row matrix here and placed as a one-row matrix by a dimension map there: one array.
-/
import proofs.«146894_j34050500722941_1_alg».proof.Proof.KernelIdealFrameP
import proofs.«146894_j34050500722941_1_alg».proof.Proof.Region0
import proofs.«146894_j34050500722941_1_alg».proof.Proof.Region1
import proofs.«146894_j34050500722941_1_alg».proof.Proof.Region2
import proofs.«146894_j34050500722941_1_alg».proof.Proof.Region3
import proofs.«146894_j34050500722941_1_alg».proof.Proof.Region4
import proofs.«146894_j34050500722941_1_alg».proof.Proof.RefStages
import proofs.«146894_j34050500722941_1_alg».proof.Proof.LibCastForms

set_option maxRecDepth 16384

noncomputable section

namespace Cert.KernelIdeal.Fold

open Cert.KernelIdeal Cert.KernelIdeal.Gen Cert.KernelIdeal.GenP Cert.LibDenseRelu
open Idealize.ShloMosaic Idealize.ShloMosaic.TcCoe Idealize.SL.Sem

variable (m : (ℓ : Loc nD τ sig) → Buf (Elt Ideal) ℓ) (ρ : Dev nD → PrngReg)

/-- A buffer no operation of a host stretch writes holds after the stretch what it held before. -/
local macro "host_keep" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## What the first host stretch leaves -/

/-- The sources of the edges. -/
theorem w1_src (c : Dev nD) : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results
  rfl
/-- The destinations of the edges. -/
theorem w1_dst (c : Dev nD) : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results
  rfl
/-- The first layer's transposed weights. -/
theorem w1_w (c : Dev nD) : W1 m ρ c (Proc.devRef .tc main_v4) = (Cert.ReferenceIdeal.Read.val_main_v4 (F := Ideal) (m ((c : Thread nD τ).loc main_arg2))) := by
  show StableHlo.after hostOps0 (W0 m ρ c) (Proc.devRef .tc main_v4) = _
  after_results
  rfl
/-- The first layer's bias as a one-row matrix. -/
theorem w1_b (c : Dev nD) : W1 m ρ c (Proc.devRef .tc main_v5) = (Cert.ReferenceIdeal.Read.val_main_v6 (F := Ideal) (m ((c : Thread nD τ).loc main_arg3))) := by
  show StableHlo.after hostOps0 (W0 m ρ c) (Proc.devRef .tc main_v5) = _
  after_results
  exact LibCastForms.row_cast_eq_bcast _ _ _
theorem w1_arg0 (c : Dev nD) : W1 m ρ c (Proc.devRef .tc main_arg0) = (m ((c : Thread nD τ).loc main_arg0)) := by
  show StableHlo.after hostOps0 (W0 m ρ c) (Proc.devRef .tc main_arg0) = _
  after_results
theorem w1_arg4 (c : Dev nD) : W1 m ρ c (Proc.devRef .tc main_arg4) = (m ((c : Thread nD τ).loc main_arg4)) := by
  show StableHlo.after hostOps0 (W0 m ρ c) (Proc.devRef .tc main_arg4) = _
  after_results
theorem w1_arg5 (c : Dev nD) : W1 m ρ c (Proc.devRef .tc main_arg5) = (m ((c : Thread nD τ).loc main_arg5)) := by
  show StableHlo.after hostOps0 (W0 m ρ c) (Proc.devRef .tc main_arg5) = _
  after_results
theorem w1_arg6 (c : Dev nD) : W1 m ρ c (Proc.devRef .tc main_arg6) = (m ((c : Thread nD τ).loc main_arg6)) := by
  show StableHlo.after hostOps0 (W0 m ρ c) (Proc.devRef .tc main_arg6) = _
  after_results
theorem w1_arg7 (c : Dev nD) : W1 m ρ c (Proc.devRef .tc main_arg7) = (m ((c : Thread nD τ).loc main_arg7)) := by
  show StableHlo.after hostOps0 (W0 m ρ c) (Proc.devRef .tc main_arg7) = _
  after_results
theorem w1_arg8 (c : Dev nD) : W1 m ρ c (Proc.devRef .tc main_arg8) = (m ((c : Thread nD τ).loc main_arg8)) := by
  show StableHlo.after hostOps0 (W0 m ρ c) (Proc.devRef .tc main_arg8) = _
  after_results
theorem w1_arg9 (c : Dev nD) : W1 m ρ c (Proc.devRef .tc main_arg9) = (m ((c : Thread nD τ).loc main_arg9)) := by
  show StableHlo.after hostOps0 (W0 m ρ c) (Proc.devRef .tc main_arg9) = _
  after_results
theorem w1_arg10 (c : Dev nD) : W1 m ρ c (Proc.devRef .tc main_arg10) = (m ((c : Thread nD τ).loc main_arg10)) := by
  show StableHlo.after hostOps0 (W0 m ρ c) (Proc.devRef .tc main_arg10) = _
  after_results
theorem w1_arg11 (c : Dev nD) : W1 m ρ c (Proc.devRef .tc main_arg11) = (m ((c : Thread nD τ).loc main_arg11)) := by
  show StableHlo.after hostOps0 (W0 m ρ c) (Proc.devRef .tc main_arg11) = _
  after_results
theorem w1_arg12 (c : Dev nD) : W1 m ρ c (Proc.devRef .tc main_arg12) = (m ((c : Thread nD τ).loc main_arg12)) := by
  show StableHlo.after hostOps0 (W0 m ρ c) (Proc.devRef .tc main_arg12) = _
  after_results
theorem w1_arg13 (c : Dev nD) : W1 m ρ c (Proc.devRef .tc main_arg13) = (m ((c : Thread nD τ).loc main_arg13)) := by
  show StableHlo.after hostOps0 (W0 m ρ c) (Proc.devRef .tc main_arg13) = _
  after_results
theorem w1_arg14 (c : Dev nD) : W1 m ρ c (Proc.devRef .tc main_arg14) = (m ((c : Thread nD τ).loc main_arg14)) := by
  show StableHlo.after hostOps0 (W0 m ρ c) (Proc.devRef .tc main_arg14) = _
  after_results

/-! ## Buffers that nothing writes between the first boundary and a later one -/
theorem at2_main_v1 (c : Dev nD) : W2 m ρ c (Proc.devRef .tc main_v1) = W1 m ρ c (Proc.devRef .tc main_v1) := W2_of_ne m ρ c main_v1 (by decide)
theorem at4_main_v1 (c : Dev nD) : W4 m ρ c (Proc.devRef .tc main_v1) = W1 m ρ c (Proc.devRef .tc main_v1) :=
  (W4_of_ne m ρ c main_v1 (by decide)).trans ((show W3 m ρ c (Proc.devRef .tc main_v1) = W2 m ρ c (Proc.devRef .tc main_v1) by host_keep hostOps1).trans (at2_main_v1 m ρ c))
theorem at6_main_v1 (c : Dev nD) : W6 m ρ c (Proc.devRef .tc main_v1) = W1 m ρ c (Proc.devRef .tc main_v1) :=
  (W6_of_ne m ρ c main_v1 (by decide)).trans ((show W5 m ρ c (Proc.devRef .tc main_v1) = W4 m ρ c (Proc.devRef .tc main_v1) by host_keep hostOps2).trans (at4_main_v1 m ρ c))
theorem at2_main_v3 (c : Dev nD) : W2 m ρ c (Proc.devRef .tc main_v3) = W1 m ρ c (Proc.devRef .tc main_v3) := W2_of_ne m ρ c main_v3 (by decide)
theorem at4_main_v3 (c : Dev nD) : W4 m ρ c (Proc.devRef .tc main_v3) = W1 m ρ c (Proc.devRef .tc main_v3) :=
  (W4_of_ne m ρ c main_v3 (by decide)).trans ((show W3 m ρ c (Proc.devRef .tc main_v3) = W2 m ρ c (Proc.devRef .tc main_v3) by host_keep hostOps1).trans (at2_main_v3 m ρ c))
theorem at6_main_v3 (c : Dev nD) : W6 m ρ c (Proc.devRef .tc main_v3) = W1 m ρ c (Proc.devRef .tc main_v3) :=
  (W6_of_ne m ρ c main_v3 (by decide)).trans ((show W5 m ρ c (Proc.devRef .tc main_v3) = W4 m ρ c (Proc.devRef .tc main_v3) by host_keep hostOps2).trans (at4_main_v3 m ρ c))
theorem at2_main_arg6 (c : Dev nD) : W2 m ρ c (Proc.devRef .tc main_arg6) = W1 m ρ c (Proc.devRef .tc main_arg6) := W2_of_ne m ρ c main_arg6 (by decide)
theorem at2_main_arg7 (c : Dev nD) : W2 m ρ c (Proc.devRef .tc main_arg7) = W1 m ρ c (Proc.devRef .tc main_arg7) := W2_of_ne m ρ c main_arg7 (by decide)
theorem at2_main_arg8 (c : Dev nD) : W2 m ρ c (Proc.devRef .tc main_arg8) = W1 m ρ c (Proc.devRef .tc main_arg8) := W2_of_ne m ρ c main_arg8 (by decide)
theorem at2_main_arg9 (c : Dev nD) : W2 m ρ c (Proc.devRef .tc main_arg9) = W1 m ρ c (Proc.devRef .tc main_arg9) := W2_of_ne m ρ c main_arg9 (by decide)
theorem at4_main_arg9 (c : Dev nD) : W4 m ρ c (Proc.devRef .tc main_arg9) = W1 m ρ c (Proc.devRef .tc main_arg9) :=
  (W4_of_ne m ρ c main_arg9 (by decide)).trans ((show W3 m ρ c (Proc.devRef .tc main_arg9) = W2 m ρ c (Proc.devRef .tc main_arg9) by host_keep hostOps1).trans (at2_main_arg9 m ρ c))
theorem at2_main_arg10 (c : Dev nD) : W2 m ρ c (Proc.devRef .tc main_arg10) = W1 m ρ c (Proc.devRef .tc main_arg10) := W2_of_ne m ρ c main_arg10 (by decide)
theorem at4_main_arg10 (c : Dev nD) : W4 m ρ c (Proc.devRef .tc main_arg10) = W1 m ρ c (Proc.devRef .tc main_arg10) :=
  (W4_of_ne m ρ c main_arg10 (by decide)).trans ((show W3 m ρ c (Proc.devRef .tc main_arg10) = W2 m ρ c (Proc.devRef .tc main_arg10) by host_keep hostOps1).trans (at2_main_arg10 m ρ c))
theorem at2_main_arg11 (c : Dev nD) : W2 m ρ c (Proc.devRef .tc main_arg11) = W1 m ρ c (Proc.devRef .tc main_arg11) := W2_of_ne m ρ c main_arg11 (by decide)
theorem at4_main_arg11 (c : Dev nD) : W4 m ρ c (Proc.devRef .tc main_arg11) = W1 m ρ c (Proc.devRef .tc main_arg11) :=
  (W4_of_ne m ρ c main_arg11 (by decide)).trans ((show W3 m ρ c (Proc.devRef .tc main_arg11) = W2 m ρ c (Proc.devRef .tc main_arg11) by host_keep hostOps1).trans (at2_main_arg11 m ρ c))
theorem at2_main_arg12 (c : Dev nD) : W2 m ρ c (Proc.devRef .tc main_arg12) = W1 m ρ c (Proc.devRef .tc main_arg12) := W2_of_ne m ρ c main_arg12 (by decide)
theorem at4_main_arg12 (c : Dev nD) : W4 m ρ c (Proc.devRef .tc main_arg12) = W1 m ρ c (Proc.devRef .tc main_arg12) :=
  (W4_of_ne m ρ c main_arg12 (by decide)).trans ((show W3 m ρ c (Proc.devRef .tc main_arg12) = W2 m ρ c (Proc.devRef .tc main_arg12) by host_keep hostOps1).trans (at2_main_arg12 m ρ c))
theorem at6_main_arg12 (c : Dev nD) : W6 m ρ c (Proc.devRef .tc main_arg12) = W1 m ρ c (Proc.devRef .tc main_arg12) :=
  (W6_of_ne m ρ c main_arg12 (by decide)).trans ((show W5 m ρ c (Proc.devRef .tc main_arg12) = W4 m ρ c (Proc.devRef .tc main_arg12) by host_keep hostOps2).trans (at4_main_arg12 m ρ c))
theorem at2_main_arg13 (c : Dev nD) : W2 m ρ c (Proc.devRef .tc main_arg13) = W1 m ρ c (Proc.devRef .tc main_arg13) := W2_of_ne m ρ c main_arg13 (by decide)
theorem at4_main_arg13 (c : Dev nD) : W4 m ρ c (Proc.devRef .tc main_arg13) = W1 m ρ c (Proc.devRef .tc main_arg13) :=
  (W4_of_ne m ρ c main_arg13 (by decide)).trans ((show W3 m ρ c (Proc.devRef .tc main_arg13) = W2 m ρ c (Proc.devRef .tc main_arg13) by host_keep hostOps1).trans (at2_main_arg13 m ρ c))
theorem at6_main_arg13 (c : Dev nD) : W6 m ρ c (Proc.devRef .tc main_arg13) = W1 m ρ c (Proc.devRef .tc main_arg13) :=
  (W6_of_ne m ρ c main_arg13 (by decide)).trans ((show W5 m ρ c (Proc.devRef .tc main_arg13) = W4 m ρ c (Proc.devRef .tc main_arg13) by host_keep hostOps2).trans (at4_main_arg13 m ρ c))
theorem at2_main_arg14 (c : Dev nD) : W2 m ρ c (Proc.devRef .tc main_arg14) = W1 m ρ c (Proc.devRef .tc main_arg14) := W2_of_ne m ρ c main_arg14 (by decide)
theorem at4_main_arg14 (c : Dev nD) : W4 m ρ c (Proc.devRef .tc main_arg14) = W1 m ρ c (Proc.devRef .tc main_arg14) :=
  (W4_of_ne m ρ c main_arg14 (by decide)).trans ((show W3 m ρ c (Proc.devRef .tc main_arg14) = W2 m ρ c (Proc.devRef .tc main_arg14) by host_keep hostOps1).trans (at2_main_arg14 m ρ c))
theorem at6_main_arg14 (c : Dev nD) : W6 m ρ c (Proc.devRef .tc main_arg14) = W1 m ρ c (Proc.devRef .tc main_arg14) :=
  (W6_of_ne m ρ c main_arg14 (by decide)).trans ((show W5 m ρ c (Proc.devRef .tc main_arg14) = W4 m ρ c (Proc.devRef .tc main_arg14) by host_keep hostOps2).trans (at4_main_arg14 m ρ c))
theorem at2_main_arg4 (c : Dev nD) : W2 m ρ c (Proc.devRef .tc main_arg4) = W1 m ρ c (Proc.devRef .tc main_arg4) := W2_of_ne m ρ c main_arg4 (by decide)
theorem at4_main_arg4 (c : Dev nD) : W4 m ρ c (Proc.devRef .tc main_arg4) = W1 m ρ c (Proc.devRef .tc main_arg4) :=
  (W4_of_ne m ρ c main_arg4 (by decide)).trans ((show W3 m ρ c (Proc.devRef .tc main_arg4) = W2 m ρ c (Proc.devRef .tc main_arg4) by host_keep hostOps1).trans (at2_main_arg4 m ρ c))
theorem at6_main_arg4 (c : Dev nD) : W6 m ρ c (Proc.devRef .tc main_arg4) = W1 m ρ c (Proc.devRef .tc main_arg4) :=
  (W6_of_ne m ρ c main_arg4 (by decide)).trans ((show W5 m ρ c (Proc.devRef .tc main_arg4) = W4 m ρ c (Proc.devRef .tc main_arg4) by host_keep hostOps2).trans (at4_main_arg4 m ρ c))
theorem at8_main_arg4 (c : Dev nD) : W8 m ρ c (Proc.devRef .tc main_arg4) = W1 m ρ c (Proc.devRef .tc main_arg4) :=
  (W8_of_ne m ρ c main_arg4 (by decide)).trans ((show W7 m ρ c (Proc.devRef .tc main_arg4) = W6 m ρ c (Proc.devRef .tc main_arg4) by host_keep hostOps3).trans (at6_main_arg4 m ρ c))
theorem at2_main_arg5 (c : Dev nD) : W2 m ρ c (Proc.devRef .tc main_arg5) = W1 m ρ c (Proc.devRef .tc main_arg5) := W2_of_ne m ρ c main_arg5 (by decide)
theorem at4_main_arg5 (c : Dev nD) : W4 m ρ c (Proc.devRef .tc main_arg5) = W1 m ρ c (Proc.devRef .tc main_arg5) :=
  (W4_of_ne m ρ c main_arg5 (by decide)).trans ((show W3 m ρ c (Proc.devRef .tc main_arg5) = W2 m ρ c (Proc.devRef .tc main_arg5) by host_keep hostOps1).trans (at2_main_arg5 m ρ c))
theorem at6_main_arg5 (c : Dev nD) : W6 m ρ c (Proc.devRef .tc main_arg5) = W1 m ρ c (Proc.devRef .tc main_arg5) :=
  (W6_of_ne m ρ c main_arg5 (by decide)).trans ((show W5 m ρ c (Proc.devRef .tc main_arg5) = W4 m ρ c (Proc.devRef .tc main_arg5) by host_keep hostOps2).trans (at4_main_arg5 m ρ c))
theorem at8_main_arg5 (c : Dev nD) : W8 m ρ c (Proc.devRef .tc main_arg5) = W1 m ρ c (Proc.devRef .tc main_arg5) :=
  (W8_of_ne m ρ c main_arg5 (by decide)).trans ((show W7 m ρ c (Proc.devRef .tc main_arg5) = W6 m ρ c (Proc.devRef .tc main_arg5) by host_keep hostOps3).trans (at6_main_arg5 m ρ c))

/-! ## Launch 0 -/

/-- After launch 0 the feature buffer holds the reference's first stage. -/
theorem o0 (c : Dev nD) : W2 m ρ c (Proc.devRef .tc main_v6) = (Cert.ReferenceIdeal.Read.val_main_v9 (F := Ideal) (m ((c : Thread nD τ).loc main_arg0)) (m ((c : Thread nD τ).loc main_arg2)) (m ((c : Thread nD τ).loc main_arg3))) := by
  refine (W2_arr m ρ c 3).trans ?_
  rw [Region0.final (V1 m ρ) c]
  show affineRelu (W1 m ρ c (Proc.devRef .tc main_arg0)) (W1 m ρ c (Proc.devRef .tc main_v4)) (W1 m ρ c (Proc.devRef .tc main_v5)) = _
  rw [w1_arg0 m ρ c, w1_w m ρ c, w1_b m ρ c, ← Cert.ReferenceIdeal.Stages.stage0]

/-! ## Message-passing layer 1: the host stretch before launch 1, and the launch -/

/-- The features pass through the stretch untouched. -/
theorem e3_h (c : Dev nD) : W3 m ρ c (Proc.devRef .tc main_v6) = (Cert.ReferenceIdeal.Read.val_main_v9 (F := Ideal) (m ((c : Thread nD τ).loc main_arg0)) (m ((c : Thread nD τ).loc main_arg2)) (m ((c : Thread nD τ).loc main_arg3))) :=
  (show W3 m ρ c (Proc.devRef .tc main_v6) = W2 m ρ c (Proc.devRef .tc main_v6) by host_keep hostOps1).trans (o0 m ρ c)
set_option maxHeartbeats 4000000 in
/-- The neighbour sums: the features' rows gathered at the sources (negative ones wrapped) and added up at the destinations. -/
theorem e3_agg (c : Dev nD) : W3 m ρ c (Proc.devRef .tc main_v16) = (Cert.ReferenceIdeal.Read.val_main_v19 (F := Ideal) (m ((c : Thread nD τ).loc main_arg0)) (m ((c : Thread nD τ).loc main_arg1)) (m ((c : Thread nD τ).loc main_arg2)) (m ((c : Thread nD τ).loc main_arg3))) := by
  show StableHlo.after hostOps1 (W2 m ρ c) (Proc.devRef .tc main_v16) = _
  after_results
  rw [o0 m ρ c, (at2_main_v1 m ρ c).trans (w1_src m ρ c), (at2_main_v3 m ρ c).trans (w1_dst m ρ c)]
  rfl
/-- The layer's transposed neighbour weights. -/
theorem e3_relw (c : Dev nD) : W3 m ρ c (Proc.devRef .tc main_v17) = (Cert.ReferenceIdeal.Read.val_main_v20 (F := Ideal) (m ((c : Thread nD τ).loc main_arg6))) := by
  show StableHlo.after hostOps1 (W2 m ρ c) (Proc.devRef .tc main_v17) = _
  after_results
  rw [(at2_main_arg6 m ρ c).trans (w1_arg6 m ρ c)]
  rfl
/-- The layer's bias as a one-row matrix. -/
theorem e3_relb (c : Dev nD) : W3 m ρ c (Proc.devRef .tc main_v19) = (Cert.ReferenceIdeal.Read.val_main_v22 (F := Ideal) (m ((c : Thread nD τ).loc main_arg7))) := by
  show StableHlo.after hostOps1 (W2 m ρ c) (Proc.devRef .tc main_v19) = _
  after_results
  rw [(at2_main_arg7 m ρ c).trans (w1_arg7 m ρ c)]
  exact LibCastForms.row_cast_eq_bcast _ _ _
/-- The layer's transposed root weights. -/
theorem e3_rootw (c : Dev nD) : W3 m ρ c (Proc.devRef .tc main_v18) = (Cert.ReferenceIdeal.Read.val_main_v25 (F := Ideal) (m ((c : Thread nD τ).loc main_arg8))) := by
  show StableHlo.after hostOps1 (W2 m ρ c) (Proc.devRef .tc main_v18) = _
  after_results
  rw [(at2_main_arg8 m ρ c).trans (w1_arg8 m ρ c)]
  rfl
/-- After launch 1 the feature buffer holds the reference's stage. -/
theorem o1 (c : Dev nD) : W4 m ρ c (Proc.devRef .tc main_v20) = (Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) := by
  refine (W4_arr m ρ c 5).trans ?_
  rw [Region1.final (V3 m ρ) c]
  show pairRelu (W3 m ρ c (Proc.devRef .tc main_v16)) (W3 m ρ c (Proc.devRef .tc main_v17)) (W3 m ρ c (Proc.devRef .tc main_v6)) (W3 m ρ c (Proc.devRef .tc main_v18)) (W3 m ρ c (Proc.devRef .tc main_v19)) = _
  rw [e3_agg m ρ c, e3_relw m ρ c, e3_h m ρ c, e3_rootw m ρ c, e3_relb m ρ c, ← Cert.ReferenceIdeal.Stages.stage1]

/-! ## Message-passing layer 2: the host stretch before launch 2, and the launch -/

/-- The features pass through the stretch untouched. -/
theorem e5_h (c : Dev nD) : W5 m ρ c (Proc.devRef .tc main_v20) = (Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) :=
  (show W5 m ρ c (Proc.devRef .tc main_v20) = W4 m ρ c (Proc.devRef .tc main_v20) by host_keep hostOps2).trans (o1 m ρ c)
set_option maxHeartbeats 4000000 in
/-- The neighbour sums: the features' rows gathered at the sources (negative ones wrapped) and added up at the destinations. -/
theorem e5_agg (c : Dev nD) : W5 m ρ c (Proc.devRef .tc main_v30) = (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) := by
  show StableHlo.after hostOps2 (W4 m ρ c) (Proc.devRef .tc main_v30) = _
  after_results
  rw [o1 m ρ c, (at4_main_v1 m ρ c).trans (w1_src m ρ c), (at4_main_v3 m ρ c).trans (w1_dst m ρ c)]
  rfl
/-- The layer's transposed neighbour weights. -/
theorem e5_relw (c : Dev nD) : W5 m ρ c (Proc.devRef .tc main_v31) = (Cert.ReferenceIdeal.Read.val_main_v39 (F := Ideal) (m ((c : Thread nD τ).loc main_arg9))) := by
  show StableHlo.after hostOps2 (W4 m ρ c) (Proc.devRef .tc main_v31) = _
  after_results
  rw [(at4_main_arg9 m ρ c).trans (w1_arg9 m ρ c)]
  rfl
/-- The layer's bias as a one-row matrix. -/
theorem e5_relb (c : Dev nD) : W5 m ρ c (Proc.devRef .tc main_v33) = (Cert.ReferenceIdeal.Read.val_main_v41 (F := Ideal) (m ((c : Thread nD τ).loc main_arg10))) := by
  show StableHlo.after hostOps2 (W4 m ρ c) (Proc.devRef .tc main_v33) = _
  after_results
  rw [(at4_main_arg10 m ρ c).trans (w1_arg10 m ρ c)]
  exact LibCastForms.row_cast_eq_bcast _ _ _
/-- The layer's transposed root weights. -/
theorem e5_rootw (c : Dev nD) : W5 m ρ c (Proc.devRef .tc main_v32) = (Cert.ReferenceIdeal.Read.val_main_v44 (F := Ideal) (m ((c : Thread nD τ).loc main_arg11))) := by
  show StableHlo.after hostOps2 (W4 m ρ c) (Proc.devRef .tc main_v32) = _
  after_results
  rw [(at4_main_arg11 m ρ c).trans (w1_arg11 m ρ c)]
  rfl
/-- After launch 2 the feature buffer holds the reference's stage. -/
theorem o2 (c : Dev nD) : W6 m ρ c (Proc.devRef .tc main_v34) = (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W6_arr m ρ c 5).trans ?_
  rw [Region2.final (V5 m ρ) c]
  show pairRelu (W5 m ρ c (Proc.devRef .tc main_v30)) (W5 m ρ c (Proc.devRef .tc main_v31)) (W5 m ρ c (Proc.devRef .tc main_v20)) (W5 m ρ c (Proc.devRef .tc main_v32)) (W5 m ρ c (Proc.devRef .tc main_v33)) = _
  rw [e5_agg m ρ c, e5_relw m ρ c, e5_h m ρ c, e5_rootw m ρ c, e5_relb m ρ c, ← Cert.ReferenceIdeal.Stages.stage2]

/-! ## Message-passing layer 3: the host stretch before launch 3, and the launch -/

/-- The features pass through the stretch untouched. -/
theorem e7_h (c : Dev nD) : W7 m ρ c (Proc.devRef .tc main_v34) = (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (show W7 m ρ c (Proc.devRef .tc main_v34) = W6 m ρ c (Proc.devRef .tc main_v34) by host_keep hostOps3).trans (o2 m ρ c)
set_option maxHeartbeats 4000000 in
/-- The neighbour sums: the features' rows gathered at the sources (negative ones wrapped) and added up at the destinations. -/
theorem e7_agg (c : Dev nD) : W7 m ρ c (Proc.devRef .tc main_v44) = (Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show StableHlo.after hostOps3 (W6 m ρ c) (Proc.devRef .tc main_v44) = _
  after_results
  rw [o2 m ρ c, (at6_main_v1 m ρ c).trans (w1_src m ρ c), (at6_main_v3 m ρ c).trans (w1_dst m ρ c)]
  rfl
/-- The layer's transposed neighbour weights. -/
theorem e7_relw (c : Dev nD) : W7 m ρ c (Proc.devRef .tc main_v45) = (Cert.ReferenceIdeal.Read.val_main_v58 (F := Ideal) (m ((c : Thread nD τ).loc main_arg12))) := by
  show StableHlo.after hostOps3 (W6 m ρ c) (Proc.devRef .tc main_v45) = _
  after_results
  rw [(at6_main_arg12 m ρ c).trans (w1_arg12 m ρ c)]
  rfl
/-- The layer's bias as a one-row matrix. -/
theorem e7_relb (c : Dev nD) : W7 m ρ c (Proc.devRef .tc main_v47) = (Cert.ReferenceIdeal.Read.val_main_v60 (F := Ideal) (m ((c : Thread nD τ).loc main_arg13))) := by
  show StableHlo.after hostOps3 (W6 m ρ c) (Proc.devRef .tc main_v47) = _
  after_results
  rw [(at6_main_arg13 m ρ c).trans (w1_arg13 m ρ c)]
  exact LibCastForms.row_cast_eq_bcast _ _ _
/-- The layer's transposed root weights. -/
theorem e7_rootw (c : Dev nD) : W7 m ρ c (Proc.devRef .tc main_v46) = (Cert.ReferenceIdeal.Read.val_main_v63 (F := Ideal) (m ((c : Thread nD τ).loc main_arg14))) := by
  show StableHlo.after hostOps3 (W6 m ρ c) (Proc.devRef .tc main_v46) = _
  after_results
  rw [(at6_main_arg14 m ρ c).trans (w1_arg14 m ρ c)]
  rfl
/-- After launch 3 the feature buffer holds the reference's stage. -/
theorem o3 (c : Dev nD) : W8 m ρ c (Proc.devRef .tc main_v48) = (Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W8_arr m ρ c 5).trans ?_
  rw [Region3.final (V7 m ρ) c]
  show pairRelu (W7 m ρ c (Proc.devRef .tc main_v44)) (W7 m ρ c (Proc.devRef .tc main_v45)) (W7 m ρ c (Proc.devRef .tc main_v34)) (W7 m ρ c (Proc.devRef .tc main_v46)) (W7 m ρ c (Proc.devRef .tc main_v47)) = _
  rw [e7_agg m ρ c, e7_relw m ρ c, e7_h m ρ c, e7_rootw m ρ c, e7_relb m ρ c, ← Cert.ReferenceIdeal.Stages.stage3]

/-! ## The output layer -/

/-- The features pass through the last stretch untouched. -/
theorem e9_h (c : Dev nD) : W9 m ρ c (Proc.devRef .tc main_v48) = (Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (show W9 m ρ c (Proc.devRef .tc main_v48) = W8 m ρ c (Proc.devRef .tc main_v48) by host_keep hostOps4).trans (o3 m ρ c)
/-- The output layer's transposed weights. -/
theorem e9_w (c : Dev nD) : W9 m ρ c (Proc.devRef .tc main_v49) = (Cert.ReferenceIdeal.Read.val_main_v67 (F := Ideal) (m ((c : Thread nD τ).loc main_arg4))) := by
  show StableHlo.after hostOps4 (W8 m ρ c) (Proc.devRef .tc main_v49) = _
  after_results
  rw [(at8_main_arg4 m ρ c).trans (w1_arg4 m ρ c)]
  rfl
/-- The output layer's bias as a one-row matrix. -/
theorem e9_b (c : Dev nD) : W9 m ρ c (Proc.devRef .tc main_v50) = (Cert.ReferenceIdeal.Read.val_main_v69 (F := Ideal) (m ((c : Thread nD τ).loc main_arg5))) := by
  show StableHlo.after hostOps4 (W8 m ρ c) (Proc.devRef .tc main_v50) = _
  after_results
  rw [(at8_main_arg5 m ρ c).trans (w1_arg5 m ρ c)]
  exact LibCastForms.row_cast_eq_bcast _ _ _

/-- The result buffer at the last boundary is the reference's result stage of the arguments. -/
theorem result_eq (c : Dev nD) : W10 m ρ c (Proc.devRef .tc main_v51) = (Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W10_arr m ρ c 3).trans ?_
  rw [Region4.final (V9 m ρ) c]
  show affineRelu (W9 m ρ c (Proc.devRef .tc main_v48)) (W9 m ρ c (Proc.devRef .tc main_v49)) (W9 m ρ c (Proc.devRef .tc main_v50)) = _
  rw [e9_h m ρ c, e9_w m ρ c, e9_b m ρ c, ← Cert.ReferenceIdeal.Stages.stage4]

end Cert.KernelIdeal.Fold

end
-- ==== Proof.lean ====
/-
  A three-layer graph network on 100000 nodes and 1600000 edges: the kernel against its reference, over the extended reals.

  Both programs compute `h0 = relu (x · preWᵀ + preb)`, three times `h' = relu (agg · relWᵀ + relb + h · rootWᵀ)` where
  row `i` of `agg` is the sum of the rows `h[src e]` over the edges `e` with `dst e = i`, and `out = relu (h3 · postWᵀ + postb)`.
  The kernel runs the five dense layers as grid launches over blocks of 5000 rows and leaves the gathers and scatter-adds to
  host operations between the launches; the reference is host operations throughout. The two differ in three ways, none of
  which changes a number on the extended reals: the kernel changes float formats around its products (the identity there);
  it computes a block of rows of a layer from the same rows of its inputs, and the blocks tile the rows; and in the middle
  layers it adds `(agg · relWᵀ + h · rootWᵀ) + relb` where the reference adds `(agg · relWᵀ + relb) + h · rootWᵀ` — addition
  is commutative and associative, the infinities included, so no input needs to be finite for the equality.

  The frames of the two kernel programs are the frame certificates over the five launches; the reference's frame is its run
  with the result dropped. Nothing was rewritten in the idealized kernel, so there is nothing to preserve. For the
  equality both runs are posted at one function of the arguments, the reference's result stage: the kernel's result buffer
  ends at it (the last boundary's contents folded back through the launches and host stretches) and so does the reference's.
-/
import proofs.«146894_j34050500722941_1_alg».proof.Defs
import proofs.«146894_j34050500722941_1_alg».proof.Proof.Gen.Kernel
import proofs.«146894_j34050500722941_1_alg».proof.Proof.Gen.KernelIdeal
import proofs.«146894_j34050500722941_1_alg».proof.Proof.Gen.ReferenceIdeal
import proofs.«146894_j34050500722941_1_alg».proof.Proof.Gen.Pre_finite_inputs
import proofs.«146894_j34050500722941_1_alg».proof.Proof.Gen.ReferenceIdeal.Run
import proofs.«146894_j34050500722941_1_alg».proof.Proof.Gen.ReferenceIdeal.Read
import proofs.«146894_j34050500722941_1_alg».proof.Proof.KernelFrameP
import proofs.«146894_j34050500722941_1_alg».proof.Proof.KernelIdealFrameP
import proofs.«146894_j34050500722941_1_alg».proof.Proof.KernelRun
import proofs.«146894_j34050500722941_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs, and its arguments end unchanged. -/
theorem frame_k : Cert.frame_Kernel := fun m ρ _ => Cert.Kernel.GenP.frame m ρ

/-- The idealized kernel runs, and its arguments end unchanged. -/
theorem frame_ki : Cert.frame_KernelIdeal := fun m ρ _ => Cert.KernelIdeal.GenP.frame m ρ

/-- The idealized reference runs, and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result buffer at the reference's result stage
    of the arguments. -/
theorem algebraic : Cert.algebraic_KernelIdeal_ReferenceIdeal := by
  intro m ρ m' ρ' _ hagree
  refine ⟨fun c => Cert.ReferenceIdeal.Read.val_main_v72 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Fold.result_eq m ρ c), (h c).2⟩)
      (Cert.KernelIdeal.ValueRun.run_out m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v72_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
